-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x768 : Shape := ⟨4, ![8, 32, 32, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S8x32x32x768 : S_.BroadcastsInDim S8x32x32x768 (![] : Fin 0 → Fin S8x32x32x768.rank)
  reducesTo_S8x32x32x768_S_d0_1_2_3 : S8x32x32x768.ReducesTo [0, 1, 2, 3] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S8x32x32x768 .f32) (main_arg1 : FVec F S768x2304 .f32) (main_arg2 : FVec F S2304 .f32) (main_arg3 : FVec F S768x768 .f32) (main_arg4 : FVec F S768 .f32) : IVec S_ 1 :=
  let main_v0 : FVec F S8x32x32x768 .f32 := Host.absf main_arg0
  let main_cst : FVec F S_ .f32 := constant S_ .f32 0x7F800000#32
  let main_v1 : FVec F S8x32x32x768 .f32 := broadcastInDim S8x32x32x768 ![] bcast_S_S8x32x32x768 main_cst
  let main_v2 : IVec S8x32x32x768 1 := cmpf .olt main_v0 main_v1
  let main_c : IVec S_ 1 := constantI S_ 1 1#1
  let main_v3 : IVec S_ 1 := (fun x v => Host.reduce IntOp.andi x v reducesTo_S8x32x32x768_S_d0_1_2_3 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S8x32x32x768 : Shape := ⟨4, ![8, 32, 32, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S8x1024x768 : Shape := ⟨3, ![8, 1024, 768]⟩
abbrev S1x768 : Shape := ⟨2, ![1, 768]⟩
abbrev S1x1024x768 : Shape := ⟨3, ![1, 1024, 768]⟩
abbrev S1024x768 : Shape := ⟨2, ![1024, 768]⟩
abbrev S1024x64 : Shape := ⟨2, ![1024, 64]⟩
abbrev S256x64 : Shape := ⟨2, ![256, 64]⟩
abbrev S64x1024 : Shape := ⟨2, ![64, 1024]⟩
abbrev S256x1024 : Shape := ⟨2, ![256, 1024]⟩
abbrev S256 : Shape := ⟨1, ![256]⟩
abbrev S256x1 : Shape := ⟨2, ![256, 1]⟩

abbrev nBuf : Space → Nat
  | .hbm => 22
  | .vmem => 13
  | .smem => 0
  | _ => 0

abbrev bufTy : (tb : Table) → Fin (tcTables nBuf tb) → BufTy
  | .hbm, ⟨0, _⟩ => ⟨S8x32x32x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S8x1024x768, .f32⟩
  | .hbm, ⟨6, _⟩ => ⟨S768x768, .f32⟩
  | .hbm, ⟨7, _⟩ => ⟨S768x768, .bf16⟩
  | .hbm, ⟨8, _⟩ => ⟨S768x768, .f32⟩
  | .hbm, ⟨9, _⟩ => ⟨S768x768, .bf16⟩
  | .hbm, ⟨10, _⟩ => ⟨S768x768, .f32⟩
  | .hbm, ⟨11, _⟩ => ⟨S768x768, .bf16⟩
  | .hbm, ⟨12, _⟩ => ⟨S768x768, .bf16⟩
  | .hbm, ⟨13, _⟩ => ⟨S768, .f32⟩
  | .hbm, ⟨14, _⟩ => ⟨S1x768, .f32⟩
  | .hbm, ⟨15, _⟩ => ⟨S768, .f32⟩
  | .hbm, ⟨16, _⟩ => ⟨S1x768, .f32⟩
  | .hbm, ⟨17, _⟩ => ⟨S768, .f32⟩
  | .hbm, ⟨18, _⟩ => ⟨S1x768, .f32⟩
  | .hbm, ⟨19, _⟩ => ⟨S1x768, .f32⟩
  | .hbm, ⟨20, _⟩ => ⟨S8x1024x768, .f32⟩
  | .hbm, ⟨21, _⟩ => ⟨S8x32x32x768, .f32⟩
  | .local _ .vmem, ⟨0, _⟩ => ⟨S1x1024x768, .f32⟩
  | .local _ .vmem, ⟨1, _⟩ => ⟨S1x1024x768, .f32⟩
  | .local _ .vmem, ⟨2, _⟩ => ⟨S768x768, .bf16⟩
  | .local _ .vmem, ⟨3, _⟩ => ⟨S768x768, .bf16⟩
  | .local _ .vmem, ⟨4, _⟩ => ⟨S768x768, .bf16⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S768x768, .bf16⟩
  | .local _ .vmem, ⟨9, _⟩ => ⟨S1x768, .f32⟩
  | .local _ .vmem, ⟨10, _⟩ => ⟨S1x1024x768, .f32⟩
  | .local _ .vmem, ⟨11, _⟩ => ⟨S1x1024x768, .f32⟩
  | .local _ .vmem, ⟨12, _⟩ => ⟨S1024x768, .bf16⟩
  | _, _ => ⟨S8x32x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1024x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8x32x32x768_S8x1024x768 : S8x32x32x768.ShapeCasts S8x1024x768
  slices_S768x2304_S768x768_0_0 : S768x2304.Slices ![0, 0] S768x768
  bitsLt_bf16_f32 : FTy.bits .bf16 < FTy.bits .f32
  slices_S768x2304_S768x768_0_768 : S768x2304.Slices ![0, 768] S768x768
  slices_S768x2304_S768x768_0_1536 : S768x2304.Slices ![0, 1536] S768x768
  slices_S2304_S768_0 : S2304.Slices ![0] S768
  shapeCasts_S768_S1x768 : S768.ShapeCasts S1x768
  slices_S2304_S768_768 : S2304.Slices ![768] S768
  slices_S2304_S768_1536 : S2304.Slices ![1536] S768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x64 : S1024x768.Slices ![0, 0] S1024x64
  slices_S1024x64_o0_0_S256x64 : S1024x64.Slices ![0, 0] S256x64
  transposes_S1024x64_p1_0_S64x1024 : S1024x64.Transposes [1, 0] S64x1024
  reduces_S256x1024_S256 : S256x1024.Reduces [1] S256
  shapeCasts_S256_S256x1 : S256.ShapeCasts S256x1
  broadcasts_S256x1_S256x1024 : S256x1.Broadcasts S256x1024
  inb_S1024x768_S256x64_0_0 : ∀ a, (![0, 0] : Fin 2 → Nat) a + S256x64.size a ≤ S1024x768.size a
  h_S256x64 : 0 < S256x64.numel
  shapeCasts_S256x64_S256x64 : S256x64.ShapeCasts S256x64
  packedbf16_S1024x768_S256x64_0_0 : (Rect.unit (s := S1024x768) ![0, 0] S256x64.size inb_S1024x768_S256x64_0_0).PackedRows (EltTy.packing .bf16)
  slices_S1024x64_o256_0_S256x64 : S1024x64.Slices ![256, 0] S256x64
  inb_S1024x768_S256x64_256_0 : ∀ a, (![256, 0] : Fin 2 → Nat) a + S256x64.size a ≤ S1024x768.size a
  packedbf16_S1024x768_S256x64_256_0 : (Rect.unit (s := S1024x768) ![256, 0] S256x64.size inb_S1024x768_S256x64_256_0).PackedRows (EltTy.packing .bf16)
  slices_S1024x64_o512_0_S256x64 : S1024x64.Slices ![512, 0] S256x64
  inb_S1024x768_S256x64_512_0 : ∀ a, (![512, 0] : Fin 2 → Nat) a + S256x64.size a ≤ S1024x768.size a
  packedbf16_S1024x768_S256x64_512_0 : (Rect.unit (s := S1024x768) ![512, 0] S256x64.size inb_S1024x768_S256x64_512_0).PackedRows (EltTy.packing .bf16)
  slices_S1024x64_o768_0_S256x64 : S1024x64.Slices ![768, 0] S256x64
  inb_S1024x768_S256x64_768_0 : ∀ a, (![768, 0] : Fin 2 → Nat) a + S256x64.size a ≤ S1024x768.size a
  packedbf16_S1024x768_S256x64_768_0 : (Rect.unit (s := S1024x768) ![768, 0] S256x64.size inb_S1024x768_S256x64_768_0).PackedRows (EltTy.packing .bf16)
  slices_S1024x768_o0_64_S1024x64 : S1024x768.Slices ![0, 64] S1024x64
  inb_S1024x768_S256x64_0_64 : ∀ a, (![0, 64] : Fin 2 → Nat) a + S256x64.size a ≤ S1024x768.size a
  packedbf16_S1024x768_S256x64_0_64 : (Rect.unit (s := S1024x768) ![0, 64] S256x64.size inb_S1024x768_S256x64_0_64).PackedRows (EltTy.packing .bf16)
  inb_S1024x768_S256x64_256_64 : ∀ a, (![256, 64] : Fin 2 → Nat) a + S256x64.size a ≤ S1024x768.size a
  packedbf16_S1024x768_S256x64_256_64 : (Rect.unit (s := S1024x768) ![256, 64] S256x64.size inb_S1024x768_S256x64_256_64).PackedRows (EltTy.packing .bf16)
  inb_S1024x768_S256x64_512_64 : ∀ a, (![512, 64] : Fin 2 → Nat) a + S256x64.size a ≤ S1024x768.size a
  packedbf16_S1024x768_S256x64_512_64 : (Rect.unit (s := S1024x768) ![512, 64] S256x64.size inb_S1024x768_S256x64_512_64).PackedRows (EltTy.packing .bf16)
  inb_S1024x768_S256x64_768_64 : ∀ a, (![768, 64] : Fin 2 → Nat) a + S256x64.size a ≤ S1024x768.size a
  packedbf16_S1024x768_S256x64_768_64 : (Rect.unit (s := S1024x768) ![768, 64] S256x64.size inb_S1024x768_S256x64_768_64).PackedRows (EltTy.packing .bf16)
  slices_S1024x768_o0_128_S1024x64 : S1024x768.Slices ![0, 128] S1024x64
  inb_S1024x768_S256x64_0_128 : ∀ a, (![0, 128] : Fin 2 → Nat) a + S256x64.size a ≤ S1024x768.size a
  packedbf16_S1024x768_S256x64_0_128 : (Rect.unit (s := S1024x768) ![0, 128] S256x64.size inb_S1024x768_S256x64_0_128).PackedRows (EltTy.packing .bf16)
  inb_S1024x768_S256x64_256_128 : ∀ a, (![256, 128] : Fin 2 → Nat) a + S256x64.size a ≤ S1024x768.size a
  packedbf16_S1024x768_S256x64_256_128 : (Rect.unit (s := S1024x768) ![256, 128] S256x64.size inb_S1024x768_S256x64_256_128).PackedRows (EltTy.packing .bf16)
  inb_S1024x768_S256x64_512_128 : ∀ a, (![512, 128] : Fin 2 → Nat) a + S256x64.size a ≤ S1024x768.size a
  packedbf16_S1024x768_S256x64_512_128 : (Rect.unit (s := S1024x768) ![512, 128] S256x64.size inb_S1024x768_S256x64_512_128).PackedRows (EltTy.packing .bf16)
  inb_S1024x768_S256x64_768_128 : ∀ a, (![768, 128] : Fin 2 → Nat) a + S256x64.size a ≤ S1024x768.size a
  packedbf16_S1024x768_S256x64_768_128 : (Rect.unit (s := S1024x768) ![768, 128] S256x64.size inb_S1024x768_S256x64_768_128).PackedRows (EltTy.packing .bf16)
  slices_S1024x768_o0_192_S1024x64 : S1024x768.Slices ![0, 192] S1024x64
  inb_S1024x768_S256x64_0_192 : ∀ a, (![0, 192] : Fin 2 → Nat) a + S256x64.size a ≤ S1024x768.size a
  packedbf16_S1024x768_S256x64_0_192 : (Rect.unit (s := S1024x768) ![0, 192] S256x64.size inb_S1024x768_S256x64_0_192).PackedRows (EltTy.packing .bf16)
  inb_S1024x768_S256x64_256_192 : ∀ a, (![256, 192] : Fin 2 → Nat) a + S256x64.size a ≤ S1024x768.size a
  packedbf16_S1024x768_S256x64_256_192 : (Rect.unit (s := S1024x768) ![256, 192] S256x64.size inb_S1024x768_S256x64_256_192).PackedRows (EltTy.packing .bf16)
  inb_S1024x768_S256x64_512_192 : ∀ a, (![512, 192] : Fin 2 → Nat) a + S256x64.size a ≤ S1024x768.size a
  packedbf16_S1024x768_S256x64_512_192 : (Rect.unit (s := S1024x768) ![512, 192] S256x64.size inb_S1024x768_S256x64_512_192).PackedRows (EltTy.packing .bf16)
  inb_S1024x768_S256x64_768_192 : ∀ a, (![768, 192] : Fin 2 → Nat) a + S256x64.size a ≤ S1024x768.size a
  packedbf16_S1024x768_S256x64_768_192 : (Rect.unit (s := S1024x768) ![768, 192] S256x64.size inb_S1024x768_S256x64_768_192).PackedRows (EltTy.packing .bf16)
  slices_S1024x768_o0_256_S1024x64 : S1024x768.Slices ![0, 256] S1024x64
  inb_S1024x768_S256x64_0_256 : ∀ a, (![0, 256] : Fin 2 → Nat) a + S256x64.size a ≤ S1024x768.size a
  packedbf16_S1024x768_S256x64_0_256 : (Rect.unit (s := S1024x768) ![0, 256] S256x64.size inb_S1024x768_S256x64_0_256).PackedRows (EltTy.packing .bf16)
  inb_S1024x768_S256x64_256_256 : ∀ a, (![256, 256] : Fin 2 → Nat) a + S256x64.size a ≤ S1024x768.size a
  packedbf16_S1024x768_S256x64_256_256 : (Rect.unit (s := S1024x768) ![256, 256] S256x64.size inb_S1024x768_S256x64_256_256).PackedRows (EltTy.packing .bf16)
  inb_S1024x768_S256x64_512_256 : ∀ a, (![512, 256] : Fin 2 → Nat) a + S256x64.size a ≤ S1024x768.size a
  packedbf16_S1024x768_S256x64_512_256 : (Rect.unit (s := S1024x768) ![512, 256] S256x64.size inb_S1024x768_S256x64_512_256).PackedRows (EltTy.packing .bf16)
  inb_S1024x768_S256x64_768_256 : ∀ a, (![768, 256] : Fin 2 → Nat) a + S256x64.size a ≤ S1024x768.size a
  packedbf16_S1024x768_S256x64_768_256 : (Rect.unit (s := S1024x768) ![768, 256] S256x64.size inb_S1024x768_S256x64_768_256).PackedRows (EltTy.packing .bf16)
  slices_S1024x768_o0_320_S1024x64 : S1024x768.Slices ![0, 320] S1024x64
  inb_S1024x768_S256x64_0_320 : ∀ a, (![0, 320] : Fin 2 → Nat) a + S256x64.size a ≤ S1024x768.size a
  packedbf16_S1024x768_S256x64_0_320 : (Rect.unit (s := S1024x768) ![0, 320] S256x64.size inb_S1024x768_S256x64_0_320).PackedRows (EltTy.packing .bf16)
  inb_S1024x768_S256x64_256_320 : ∀ a, (![256, 320] : Fin 2 → Nat) a + S256x64.size a ≤ S1024x768.size a
  packedbf16_S1024x768_S256x64_256_320 : (Rect.unit (s := S1024x768) ![256, 320] S256x64.size inb_S1024x768_S256x64_256_320).PackedRows (EltTy.packing .bf16)
  inb_S1024x768_S256x64_512_320 : ∀ a, (![512, 320] : Fin 2 → Nat) a + S256x64.size a ≤ S1024x768.size a
  packedbf16_S1024x768_S256x64_512_320 : (Rect.unit (s := S1024x768) ![512, 320] S256x64.size inb_S1024x768_S256x64_512_320).PackedRows (EltTy.packing .bf16)
  inb_S1024x768_S256x64_768_320 : ∀ a, (![768, 320] : Fin 2 → Nat) a + S256x64.size a ≤ S1024x768.size a
  packedbf16_S1024x768_S256x64_768_320 : (Rect.unit (s := S1024x768) ![768, 320] S256x64.size inb_S1024x768_S256x64_768_320).PackedRows (EltTy.packing .bf16)
  slices_S1024x768_o0_384_S1024x64 : S1024x768.Slices ![0, 384] S1024x64
  inb_S1024x768_S256x64_0_384 : ∀ a, (![0, 384] : Fin 2 → Nat) a + S256x64.size a ≤ S1024x768.size a
  packedbf16_S1024x768_S256x64_0_384 : (Rect.unit (s := S1024x768) ![0, 384] S256x64.size inb_S1024x768_S256x64_0_384).PackedRows (EltTy.packing .bf16)
  inb_S1024x768_S256x64_256_384 : ∀ a, (![256, 384] : Fin 2 → Nat) a + S256x64.size a ≤ S1024x768.size a
  packedbf16_S1024x768_S256x64_256_384 : (Rect.unit (s := S1024x768) ![256, 384] S256x64.size inb_S1024x768_S256x64_256_384).PackedRows (EltTy.packing .bf16)
  inb_S1024x768_S256x64_512_384 : ∀ a, (![512, 384] : Fin 2 → Nat) a + S256x64.size a ≤ S1024x768.size a
  packedbf16_S1024x768_S256x64_512_384 : (Rect.unit (s := S1024x768) ![512, 384] S256x64.size inb_S1024x768_S256x64_512_384).PackedRows (EltTy.packing .bf16)
  inb_S1024x768_S256x64_768_384 : ∀ a, (![768, 384] : Fin 2 → Nat) a + S256x64.size a ≤ S1024x768.size a
  packedbf16_S1024x768_S256x64_768_384 : (Rect.unit (s := S1024x768) ![768, 384] S256x64.size inb_S1024x768_S256x64_768_384).PackedRows (EltTy.packing .bf16)
  slices_S1024x768_o0_448_S1024x64 : S1024x768.Slices ![0, 448] S1024x64
  inb_S1024x768_S256x64_0_448 : ∀ a, (![0, 448] : Fin 2 → Nat) a + S256x64.size a ≤ S1024x768.size a
  packedbf16_S1024x768_S256x64_0_448 : (Rect.unit (s := S1024x768) ![0, 448] S256x64.size inb_S1024x768_S256x64_0_448).PackedRows (EltTy.packing .bf16)
  inb_S1024x768_S256x64_256_448 : ∀ a, (![256, 448] : Fin 2 → Nat) a + S256x64.size a ≤ S1024x768.size a
  packedbf16_S1024x768_S256x64_256_448 : (Rect.unit (s := S1024x768) ![256, 448] S256x64.size inb_S1024x768_S256x64_256_448).PackedRows (EltTy.packing .bf16)
  inb_S1024x768_S256x64_512_448 : ∀ a, (![512, 448] : Fin 2 → Nat) a + S256x64.size a ≤ S1024x768.size a
  packedbf16_S1024x768_S256x64_512_448 : (Rect.unit (s := S1024x768) ![512, 448] S256x64.size inb_S1024x768_S256x64_512_448).PackedRows (EltTy.packing .bf16)
  inb_S1024x768_S256x64_768_448 : ∀ a, (![768, 448] : Fin 2 → Nat) a + S256x64.size a ≤ S1024x768.size a
  packedbf16_S1024x768_S256x64_768_448 : (Rect.unit (s := S1024x768) ![768, 448] S256x64.size inb_S1024x768_S256x64_768_448).PackedRows (EltTy.packing .bf16)
  slices_S1024x768_o0_512_S1024x64 : S1024x768.Slices ![0, 512] S1024x64
  inb_S1024x768_S256x64_0_512 : ∀ a, (![0, 512] : Fin 2 → Nat) a + S256x64.size a ≤ S1024x768.size a
  packedbf16_S1024x768_S256x64_0_512 : (Rect.unit (s := S1024x768) ![0, 512] S256x64.size inb_S1024x768_S256x64_0_512).PackedRows (EltTy.packing .bf16)
  inb_S1024x768_S256x64_256_512 : ∀ a, (![256, 512] : Fin 2 → Nat) a + S256x64.size a ≤ S1024x768.size a
  packedbf16_S1024x768_S256x64_256_512 : (Rect.unit (s := S1024x768) ![256, 512] S256x64.size inb_S1024x768_S256x64_256_512).PackedRows (EltTy.packing .bf16)
  inb_S1024x768_S256x64_512_512 : ∀ a, (![512, 512] : Fin 2 → Nat) a + S256x64.size a ≤ S1024x768.size a
  packedbf16_S1024x768_S256x64_512_512 : (Rect.unit (s := S1024x768) ![512, 512] S256x64.size inb_S1024x768_S256x64_512_512).PackedRows (EltTy.packing .bf16)
  inb_S1024x768_S256x64_768_512 : ∀ a, (![768, 512] : Fin 2 → Nat) a + S256x64.size a ≤ S1024x768.size a
  packedbf16_S1024x768_S256x64_768_512 : (Rect.unit (s := S1024x768) ![768, 512] S256x64.size inb_S1024x768_S256x64_768_512).PackedRows (EltTy.packing .bf16)
  slices_S1024x768_o0_576_S1024x64 : S1024x768.Slices ![0, 576] S1024x64
  inb_S1024x768_S256x64_0_576 : ∀ a, (![0, 576] : Fin 2 → Nat) a + S256x64.size a ≤ S1024x768.size a
  packedbf16_S1024x768_S256x64_0_576 : (Rect.unit (s := S1024x768) ![0, 576] S256x64.size inb_S1024x768_S256x64_0_576).PackedRows (EltTy.packing .bf16)
  inb_S1024x768_S256x64_256_576 : ∀ a, (![256, 576] : Fin 2 → Nat) a + S256x64.size a ≤ S1024x768.size a
  packedbf16_S1024x768_S256x64_256_576 : (Rect.unit (s := S1024x768) ![256, 576] S256x64.size inb_S1024x768_S256x64_256_576).PackedRows (EltTy.packing .bf16)
  inb_S1024x768_S256x64_512_576 : ∀ a, (![512, 576] : Fin 2 → Nat) a + S256x64.size a ≤ S1024x768.size a
  packedbf16_S1024x768_S256x64_512_576 : (Rect.unit (s := S1024x768) ![512, 576] S256x64.size inb_S1024x768_S256x64_512_576).PackedRows (EltTy.packing .bf16)
  inb_S1024x768_S256x64_768_576 : ∀ a, (![768, 576] : Fin 2 → Nat) a + S256x64.size a ≤ S1024x768.size a
  packedbf16_S1024x768_S256x64_768_576 : (Rect.unit (s := S1024x768) ![768, 576] S256x64.size inb_S1024x768_S256x64_768_576).PackedRows (EltTy.packing .bf16)
  slices_S1024x768_o0_640_S1024x64 : S1024x768.Slices ![0, 640] S1024x64
  inb_S1024x768_S256x64_0_640 : ∀ a, (![0, 640] : Fin 2 → Nat) a + S256x64.size a ≤ S1024x768.size a
  packedbf16_S1024x768_S256x64_0_640 : (Rect.unit (s := S1024x768) ![0, 640] S256x64.size inb_S1024x768_S256x64_0_640).PackedRows (EltTy.packing .bf16)
  inb_S1024x768_S256x64_256_640 : ∀ a, (![256, 640] : Fin 2 → Nat) a + S256x64.size a ≤ S1024x768.size a
  packedbf16_S1024x768_S256x64_256_640 : (Rect.unit (s := S1024x768) ![256, 640] S256x64.size inb_S1024x768_S256x64_256_640).PackedRows (EltTy.packing .bf16)
  inb_S1024x768_S256x64_512_640 : ∀ a, (![512, 640] : Fin 2 → Nat) a + S256x64.size a ≤ S1024x768.size a
  packedbf16_S1024x768_S256x64_512_640 : (Rect.unit (s := S1024x768) ![512, 640] S256x64.size inb_S1024x768_S256x64_512_640).PackedRows (EltTy.packing .bf16)
  inb_S1024x768_S256x64_768_640 : ∀ a, (![768, 640] : Fin 2 → Nat) a + S256x64.size a ≤ S1024x768.size a
  packedbf16_S1024x768_S256x64_768_640 : (Rect.unit (s := S1024x768) ![768, 640] S256x64.size inb_S1024x768_S256x64_768_640).PackedRows (EltTy.packing .bf16)
  slices_S1024x768_o0_704_S1024x64 : S1024x768.Slices ![0, 704] S1024x64
  inb_S1024x768_S256x64_0_704 : ∀ a, (![0, 704] : Fin 2 → Nat) a + S256x64.size a ≤ S1024x768.size a
  packedbf16_S1024x768_S256x64_0_704 : (Rect.unit (s := S1024x768) ![0, 704] S256x64.size inb_S1024x768_S256x64_0_704).PackedRows (EltTy.packing .bf16)
  inb_S1024x768_S256x64_256_704 : ∀ a, (![256, 704] : Fin 2 → Nat) a + S256x64.size a ≤ S1024x768.size a
  packedbf16_S1024x768_S256x64_256_704 : (Rect.unit (s := S1024x768) ![256, 704] S256x64.size inb_S1024x768_S256x64_256_704).PackedRows (EltTy.packing .bf16)
  inb_S1024x768_S256x64_512_704 : ∀ a, (![512, 704] : Fin 2 → Nat) a + S256x64.size a ≤ S1024x768.size a
  packedbf16_S1024x768_S256x64_512_704 : (Rect.unit (s := S1024x768) ![512, 704] S256x64.size inb_S1024x768_S256x64_512_704).PackedRows (EltTy.packing .bf16)
  inb_S1024x768_S256x64_768_704 : ∀ a, (![768, 704] : Fin 2 → Nat) a + S256x64.size a ≤ S1024x768.size a
  packedbf16_S1024x768_S256x64_768_704 : (Rect.unit (s := S1024x768) ![768, 704] S256x64.size inb_S1024x768_S256x64_768_704).PackedRows (EltTy.packing .bf16)
  inb_S1024x768_S1024x768_0_0 : ∀ a, (![0, 0] : Fin 2 → Nat) a + S1024x768.size a ≤ S1024x768.size a
  h_S1024x768 : 0 < S1024x768.numel
  shapeCasts_S1024x768_S1x1024x768 : S1024x768.ShapeCasts S1x1024x768
  shapeCasts_S8x1024x768_S8x32x32x768 : S8x1024x768.ShapeCasts S8x32x32x768
  dot_S1024x768_S768x768_S1024x768_1_0_0_1_n_n_wf : DotDims.WF S1024x768 S768x768 S1024x768 [1] [0] [0] [1] [] []
  dot_S256x64_S64x1024_S256x1024_1_0_0_1_n_n_wf : DotDims.WF S256x64 S64x1024 S256x1024 [1] [0] [0] [1] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .f32 = 32 ∨ (Rect.block (s := S8x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x768.size a ≤ S768x768.size a
  hwx0_7 : ∀ i : grid0.Coords, EltTy.bits .bf16 = 32 ∨ (Rect.block (s := S768x768) S768x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x768.size a ≤ S8x1024x768.size a
  hwx0_9 : ∀ i : grid0.Coords, EltTy.bits .f32 = 32 ∨ (Rect.block (s := S8x1024x768) S1x1024x768.size (cc0_transform_9 i) (hinb0_9 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_v0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S768x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x1024x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x32x32x768 : Shape := ⟨4, ![8, 32, 32, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S8x32x32x2304 : Shape := ⟨4, ![8, 32, 32, 2304]⟩
abbrev S1x1x1x2304 : Shape := ⟨4, ![1, 1, 1, 2304]⟩
abbrev S8x1024x3x12x64 : Shape := ⟨5, ![8, 1024, 3, 12, 64]⟩
abbrev S8x1024x1x12x64 : Shape := ⟨5, ![8, 1024, 1, 12, 64]⟩
abbrev S8x1024x12x64 : Shape := ⟨4, ![8, 1024, 12, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩
abbrev S1x1x1x768 : Shape := ⟨4, ![1, 1, 1, 768]⟩

abbrev nBuf : Space → Nat
  | .hbm => 44
  | .vmem => 0
  | .smem => 0
  | _ => 0

abbrev bufTy : (tb : Table) → Fin (tcTables nBuf tb) → BufTy
  | .hbm, ⟨0, _⟩ => ⟨S8x32x32x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S8x32x32x2304, .f32⟩
  | .hbm, ⟨6, _⟩ => ⟨S1x1x1x2304, .f32⟩
  | .hbm, ⟨7, _⟩ => ⟨S8x32x32x2304, .f32⟩
  | .hbm, ⟨8, _⟩ => ⟨S8x32x32x2304, .f32⟩
  | .hbm, ⟨9, _⟩ => ⟨S8x1024x3x12x64, .f32⟩
  | .hbm, ⟨10, _⟩ => ⟨S8x1024x1x12x64, .f32⟩
  | .hbm, ⟨11, _⟩ => ⟨S8x1024x12x64, .f32⟩
  | .hbm, ⟨12, _⟩ => ⟨S8x12x1024x64, .f32⟩
  | .hbm, ⟨13, _⟩ => ⟨S8x1024x1x12x64, .f32⟩
  | .hbm, ⟨14, _⟩ => ⟨S8x1024x12x64, .f32⟩
  | .hbm, ⟨15, _⟩ => ⟨S8x12x1024x64, .f32⟩
  | .hbm, ⟨16, _⟩ => ⟨S8x1024x1x12x64, .f32⟩
  | .hbm, ⟨17, _⟩ => ⟨S8x1024x12x64, .f32⟩
  | .hbm, ⟨18, _⟩ => ⟨S8x12x1024x64, .f32⟩
  | .hbm, ⟨19, _⟩ => ⟨S8x12x1024x1024, .f32⟩
  | .hbm, ⟨20, _⟩ => ⟨S_, .f32⟩
  | .hbm, ⟨21, _⟩ => ⟨S8x12x1024x1024, .f32⟩
  | .hbm, ⟨22, _⟩ => ⟨S8x12x1024x1024, .f32⟩
  | .hbm, ⟨23, _⟩ => ⟨S_, .f32⟩
  | .hbm, ⟨24, _⟩ => ⟨S8x12x1024, .f32⟩
  | .hbm, ⟨25, _⟩ => ⟨S_, .f32⟩
  | .hbm, ⟨26, _⟩ => ⟨S8x12x1024, .f32⟩
  | .hbm, ⟨27, _⟩ => ⟨S8x12x1024, .f32⟩
  | .hbm, ⟨28, _⟩ => ⟨S8x12x1024x1, .f32⟩
  | .hbm, ⟨29, _⟩ => ⟨S8x12x1024x1024, .f32⟩
  | .hbm, ⟨30, _⟩ => ⟨S8x12x1024x1024, .f32⟩
  | .hbm, ⟨31, _⟩ => ⟨S8x12x1024x1024, .f32⟩
  | .hbm, ⟨32, _⟩ => ⟨S_, .f32⟩
  | .hbm, ⟨33, _⟩ => ⟨S8x12x1024, .f32⟩
  | .hbm, ⟨34, _⟩ => ⟨S8x12x1024x1, .f32⟩
  | .hbm, ⟨35, _⟩ => ⟨S8x12x1024x1024, .f32⟩
  | .hbm, ⟨36, _⟩ => ⟨S8x12x1024x1024, .f32⟩
  | .hbm, ⟨37, _⟩ => ⟨S8x12x1024x64, .f32⟩
  | .hbm, ⟨38, _⟩ => ⟨S8x1024x12x64, .f32⟩
  | .hbm, ⟨39, _⟩ => ⟨S8x32x32x768, .f32⟩
  | .hbm, ⟨40, _⟩ => ⟨S8x32x32x768, .f32⟩
  | .hbm, ⟨41, _⟩ => ⟨S1x1x1x768, .f32⟩
  | .hbm, ⟨42, _⟩ => ⟨S8x32x32x768, .f32⟩
  | .hbm, ⟨43, _⟩ => ⟨S8x32x32x768, .f32⟩
  | _, _ => ⟨S8x32x32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S2304_S1x1x1x2304_3 : S2304.BroadcastsInDim S1x1x1x2304 (![3] : Fin 1 → Fin S1x1x1x2304.rank)
  bcast_S1x1x1x2304_S8x32x32x2304_0_1_2_3 : S1x1x1x2304.BroadcastsInDim S8x32x32x2304 (![0, 1, 2, 3] : Fin 4 → Fin S8x32x32x2304.rank)
  shapeCasts_S8x32x32x2304_S8x1024x3x12x64 : S8x32x32x2304.ShapeCasts S8x1024x3x12x64
  slices_S8x1024x3x12x64_S8x1024x1x12x64_0_0_0_0_0 : S8x1024x3x12x64.Slices ![0, 0, 0, 0, 0] S8x1024x1x12x64
  shapeCasts_S8x1024x1x12x64_S8x1024x12x64 : S8x1024x1x12x64.ShapeCasts S8x1024x12x64
  transposes_S8x1024x12x64_S8x12x1024x64_0_2_1_3 : S8x1024x12x64.Transposes [0, 2, 1, 3] S8x12x1024x64
  slices_S8x1024x3x12x64_S8x1024x1x12x64_0_0_1_0_0 : S8x1024x3x12x64.Slices ![0, 0, 1, 0, 0] S8x1024x1x12x64
  slices_S8x1024x3x12x64_S8x1024x1x12x64_0_0_2_0_0 : S8x1024x3x12x64.Slices ![0, 0, 2, 0, 0] S8x1024x1x12x64
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x32x32x768 : S8x1024x12x64.ShapeCasts S8x32x32x768
  bcast_S768_S1x1x1x768_3 : S768.BroadcastsInDim S1x1x1x768 (![3] : Fin 1 → Fin S1x1x1x768.rank)
  bcast_S1x1x1x768_S8x32x32x768_0_1_2_3 : S1x1x1x768.BroadcastsInDim S8x32x32x768 (![0, 1, 2, 3] : Fin 4 → Fin S8x32x32x768.rank)
  dot_S8x32x32x768_S768x2304_S8x32x32x2304_3_0_012_1_n_n_wf : DotDims.WF S8x32x32x768 S768x2304 S8x32x32x2304 [3] [0] [0, 1, 2] [1] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x32x32x768_S768x768_S8x32x32x768_3_0_012_1_n_n_wf : DotDims.WF S8x32x32x768 S768x768 S8x32x32x768 [3] [0] [0, 1, 2] [1] [] []

variable [Facts₀]

def dot_S8x32x32x768_S768x2304_S8x32x32x2304_3_0_012_1_n_n : DotDims S8x32x32x768 S768x2304 S8x32x32x2304 where
  lhsContracting := [3]
  rhsContracting := [0]
  lhsNonContracting := [0, 1, 2]
  rhsNonContracting := [1]
  lhsBatch := []
  rhsBatch := []
  wf := dot_S8x32x32x768_S768x2304_S8x32x32x2304_3_0_012_1_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x32x32x768_S768x768_S8x32x32x768_3_0_012_1_n_n : DotDims S8x32x32x768 S768x768 S8x32x32x768 where
  lhsContracting := [3]
  rhsContracting := [0]
  lhsNonContracting := [0, 1, 2]
  rhsNonContracting := [1]
  lhsBatch := []
  rhsBatch := []
  wf := dot_S8x32x32x768_S768x768_S8x32x32x768_3_0_012_1_n_n_wf

class Facts : Prop extends Facts₀ where

variable [Facts]
-- ==== Proof.Spec.lean ====
/-
  Multi-head self-attention over 8 images of 32 × 32 tokens with 768 channels, 12 heads of width 64, as ONE function of
  the five argument arrays, index by index on the extended reals.

  For an image `b`, a token `n < 1024` (the token of pixel (r, c) is `32 r + c`) and a channel `j < 2304`
      qkv b n j = (∑ c < 768, x[b, n / 32, n % 32, c] · w_qkv[c, j]) + b_qkv[j];
  its channels `j`, `768 + j`, `1536 + j` (j < 768) are the image's query, key and value matrices Q, K, V (1024 × 768),
  and head `h` owns the columns `64 h + d`, d < 64, of each.
  The score of query token `n` against key token `m` in head `h` is the inner product over the head's columns times 1/8;
  a row of scores is turned into weights by subtracting the row's maximum, exponentiating and dividing by the row's sum;
  the head's output is the weighted sum of its value columns; the heads lie side by side (column `64 h + d`) and are
  projected by `w_proj`, plus `b_proj`. No law of arithmetic is used to state it: every sum runs in its index's own order
  and a row's maximum is the fold of `max` from -∞, so that both programs compute this very term.
-/
import Idealize.ShloMosaic.PureOps.Ideal
import Idealize.ShloMosaic.Lib.ValueIdx

noncomputable section

namespace Cert.Attn

open Idealize.ShloMosaic Idealize.ShloMosaic.ValueIdx

/-- The five argument arrays, as functions of their indices into the extended reals. -/
abbrev ArrX : Type := (⟨4, ![8, 32, 32, 768]⟩ : Shape).Idx → EReal
abbrev ArrWqkv : Type := (⟨2, ![768, 2304]⟩ : Shape).Idx → EReal
abbrev ArrBqkv : Type := (⟨1, ![2304]⟩ : Shape).Idx → EReal
abbrev ArrWproj : Type := (⟨2, ![768, 768]⟩ : Shape).Idx → EReal
abbrev ArrBproj : Type := (⟨1, ![768]⟩ : Shape).Idx → EReal

/-- One image's query, key or value matrix: token by column. -/
abbrev Mat : Type := Fin 1024 → Fin 768 → EReal

/-- The pixel row and column of a token, and the token of a pixel. -/
def tokRow (n : Fin 1024) : Fin 32 := ⟨n.val / 32, by have := n.isLt; omega⟩
def tokCol (n : Fin 1024) : Fin 32 := ⟨n.val % 32, by omega⟩
def tokOf (r c : Fin 32) : Fin 1024 := ⟨r.val * 32 + c.val, by have := r.isLt; have := c.isLt; omega⟩

/-- Column `64 h + d` of head `h` at depth `d`; the head and the depth of a column. -/
def chan (h : Fin 12) (d : Fin 64) : Fin 768 := ⟨h.val * 64 + d.val, by have := h.isLt; have := d.isLt; omega⟩
def headOf (j : Fin 768) : Fin 12 := ⟨j.val / 64, by have := j.isLt; omega⟩
def depthOf (j : Fin 768) : Fin 64 := ⟨j.val % 64, by omega⟩

theorem chan_headOf_depthOf (j : Fin 768) : chan (headOf j) (depthOf j) = j :=
  Fin.ext (by show j.val / 64 * 64 + j.val % 64 = j.val; omega)

/-- The scale 1/8 = 64^(-1/2) as both programs spell it, and -∞, the start of a row's maximum. -/
abbrev scale : EReal := Ideal.ofBits .f32 0x3E000000#32
abbrev negInf : EReal := Ideal.ofBits .f32 0xFF800000#32

/-! ## One image: from Q, K, V to the heads side by side -/
section Core
variable (Q K V : Mat)

/-- The scaled score of query token `n` against key token `m` in head `h`. -/
def score (h : Fin 12) (n m : Fin 1024) : EReal :=
  (∑ d : Fin 64, Q n (chan h d) * K m (chan h d)) * scale

/-- The maximum of a row of scores, folded from -∞. -/
def rowMax (h : Fin 12) (n : Fin 1024) : EReal :=
  (Finset.univ : Finset (Fin 1024)).fold max negInf (fun m => score Q K h n m)

/-- A score shifted by its row's maximum, exponentiated; the row's sum of these; the attention weight. -/
def expo (h : Fin 12) (n m : Fin 1024) : EReal := Ideal.exp (score Q K h n m - rowMax Q K h n)
def denom (h : Fin 12) (n : Fin 1024) : EReal := ∑ m : Fin 1024, expo Q K h n m
def weight (h : Fin 12) (n m : Fin 1024) : EReal := Ideal.div (expo Q K h n m) (denom Q K h n)

/-- Head `h`'s output for token `n` at depth `d`: the weighted sum of the head's value column. -/
def headOut (h : Fin 12) (n : Fin 1024) (d : Fin 64) : EReal :=
  ∑ m : Fin 1024, weight Q K h n m * V m (chan h d)

/-- The heads side by side: column `j` is depth `j % 64` of head `j / 64`. -/
def concat (n : Fin 1024) (j : Fin 768) : EReal := headOut Q K V (headOf j) n (depthOf j)

end Core

/-! ## The arguments: the joint projection, and the result -/
section
variable (x : ArrX) (w : ArrWqkv) (bias : ArrBqkv)

/-- The joint query/key/value projection of token `n` of image `b`, at channel `j`. -/
def qkv (b : Fin 8) (n : Fin 1024) (j : Fin 2304) : EReal :=
  (∑ c : Fin 768, x (ix4 b (tokRow n) (tokCol n) c) * w (ix2 c j)) + bias (ix1 j)

/-- Image `b`'s query, key and value matrices: channels `j`, `768 + j`, `1536 + j` of the joint projection. -/
def Qof (b : Fin 8) : Mat := fun n j => qkv x w bias b n ⟨j.val, by have := j.isLt; omega⟩
def Kof (b : Fin 8) : Mat := fun n j => qkv x w bias b n ⟨768 + j.val, by have := j.isLt; omega⟩
def Vof (b : Fin 8) : Mat := fun n j => qkv x w bias b n ⟨1536 + j.val, by have := j.isLt; omega⟩

variable (wp : ArrWproj) (bp : ArrBproj)

/-- The output projection of token `n` of image `b`, at channel `c`. -/
def proj (b : Fin 8) (n : Fin 1024) (c : Fin 768) : EReal :=
  (∑ j : Fin 768, concat (Qof x w bias b) (Kof x w bias b) (Vof x w bias b) n j * wp (ix2 j c)) + bp (ix1 c)

/-- The result array: at pixel (r, c') of image `b`, the projection of token `32 r + c'`. -/
def G : ArrX := fun i => proj x w bias wp bp (i 0) (tokOf (i 1) (i 2)) (i 3)

end

end Cert.Attn

end
-- ==== Proof.RefSide.lean ====
/-
  The reference side of the attention certificate: the host program's result, read index by index, is the
  attention function `Cert.Attn.G` of its five arguments.

  The program computes the joint projection x · w_qkv + b_qkv at every pixel, regroups its 2304 channels as
  (part, head, depth) = (3, 12, 64), slices out the query, key and value parts and transposes each to
  [image, head, token, depth]. None of this touches a value: each step reads its operand at an index that is
  arithmetic on the coordinates, and the composed index comes out as "token n is pixel (n / 32, n % 32), and
  (part s, head h, depth d) is channel 768 s + 64 h + d". So the three arrays are the matrices Q, K, V of the
  specification at column `64 h + d`.

  The scores are the inner products over the 64 depths times the constant 1/8. Their row maximum is a
  reduction over the key-token axis with the body `max`, started at -∞: for a commutative and associative body
  that is the fold of `max` from -∞ over the row, the very term the specification writes. The program then takes
  `max (-∞) ·` of it once more; the fold is at least its starting value -∞, so this changes nothing. Shifting by
  the maximum, exponentiating, summing the row (from the constant 0, which adds nothing) and dividing give the
  weights; the weighted sum of the value column gives a head's output; transposing back and reshaping to pixels
  puts head `j / 64`, depth `j % 64` at channel `j`; the output projection and its bias finish.

  No law of arithmetic on the extended reals is used beyond `0 + a = a` and `max (-∞) a = a` for `a ≥ -∞`: every
  sum stays in its index's own order, and each lemma below is one stage of the program at explicit coordinates.
-/
import proofs.«157842_j3736621547996_2_alg».proof.Proof.Spec
import proofs.«157842_j3736621547996_2_alg».proof.Proof.Gen.ReferenceIdeal.Read
import Idealize.ShloMosaic.PureOps.Ideal.Laws
import Idealize.ShloMosaic.Lib.ValueIdx
import Idealize.ShloMosaic.Lib.Pipeline.Value

noncomputable section

namespace Cert.Attn.Ref

open Idealize.ShloMosaic Idealize.ShloMosaic.ValueIdx Cert.ReferenceIdeal Cert.ReferenceIdeal.Gen Cert.ReferenceIdeal.Read

section Stages

variable (x0 : (⟨S8x32x32x768, .f32⟩ : BufTy).Contents (Elt Ideal)) (x1 : (⟨S768x2304, .f32⟩ : BufTy).Contents (Elt Ideal))
  (x2 : (⟨S2304, .f32⟩ : BufTy).Contents (Elt Ideal))

/-- Pixel (r, c) has token 32 r + c, whose row and column are r and c again. -/
theorem tokRow_tokOf (r c : Fin 32) : tokRow (tokOf r c) = r :=
  Fin.ext (by show (r.val * 32 + c.val) / 32 = r.val; have := c.isLt; omega)

theorem tokCol_tokOf (r c : Fin 32) : tokCol (tokOf r c) = c :=
  Fin.ext (by show (r.val * 32 + c.val) % 32 = c.val; have := c.isLt; omega)

/-- The joint projection plus its bias, at pixel (r, c) of image b and channel j. -/
theorem jointProj_at (b : Fin 8) (r c : Fin 32) (j : Fin 2304) :
    val_main_v3 (F := Ideal) x0 x1 x2 (ix4 b r c j) = qkv x0 x1 x2 b (tokOf r c) j := by
  rw [val_main_v3_apply, val_main_v0_apply, val_main_v2_apply, val_main_v1_apply]
  unfold qkv
  rw [tokRow_tokOf, tokCol_tokOf]
  show (∑ k : Fin 768, x0 (lidx_main_v0 (ix4 b r c j) k) * x1 (ridx_main_v0 (ix4 b r c j) k))
      + x2 (idx_main_v1 (idx_main_v2 (ix4 b r c j))) = _
  have el : ∀ k : Fin 768, lidx_main_v0 (ix4 b r c j) k = ix4 b r c k := fun k =>
    funext fun a => by
      match a with
      | ⟨0, _⟩ => rfl
      | ⟨1, _⟩ => rfl
      | ⟨2, _⟩ => rfl
      | ⟨3, _⟩ => rfl
  have er : ∀ k : Fin 768, ridx_main_v0 (ix4 b r c j) k = ix2 k j := fun k =>
    funext fun a => by
      match a with
      | ⟨0, _⟩ => rfl
      | ⟨1, _⟩ => rfl
  have eb : idx_main_v1 (idx_main_v2 (ix4 b r c j)) = ix1 j :=
    funext fun a => by
      match a with
      | ⟨0, _⟩ => rfl
  rw [eb]
  exact congrArg (· + x2 (ix1 j)) (Finset.sum_congr rfl fun k _ => by rw [el k, er k])

theorem tokOf_tokRow_tokCol (n : Fin 1024) : tokOf (tokRow n) (tokCol n) = n :=
  Fin.ext (by show n.val / 32 * 32 + n.val % 32 = n.val; omega)

/-- Channel `768 s + 64 h + d` of the joint projection: part `s` (query, key, value), head `h`, depth `d`. -/
def col3 (s : Fin 3) (h : Fin 12) (d : Fin 64) : Fin 2304 :=
  ⟨s.val * 768 + h.val * 64 + d.val, by have := s.isLt; have := h.isLt; have := d.isLt; omega⟩

/-- The reshape to [8, 1024, 3, 12, 64] only regroups: token `n` is pixel (n / 32, n % 32) and (s, h, d) is
    channel `768 s + 64 h + d`. -/
theorem regroup_at (b : Fin 8) (n : Fin 1024) (s : Fin 3) (h : Fin 12) (d : Fin 64) :
    val_main_v4 (F := Ideal) x0 x1 x2 (ix5 b n s h d) = qkv x0 x1 x2 b n (col3 s h d) := by
  rw [val_main_v4_apply]
  have e : idx_main_v4 (ix5 b n s h d) = ix4 b (tokRow n) (tokCol n) (col3 s h d) :=
    funext fun a => Fin.ext (by
      have := b.isLt; have := n.isLt; have := s.isLt; have := h.isLt; have := d.isLt
      match a with
      | ⟨0, _⟩ => show ((((b.val * 1024 + n.val) * 3 + s.val) * 12 + h.val) * 64 + d.val) / 2359296 = b.val; omega
      | ⟨1, _⟩ => show ((((b.val * 1024 + n.val) * 3 + s.val) * 12 + h.val) * 64 + d.val) / 73728 % 32 = n.val / 32; omega
      | ⟨2, _⟩ => show ((((b.val * 1024 + n.val) * 3 + s.val) * 12 + h.val) * 64 + d.val) / 2304 % 32 = n.val % 32; omega
      | ⟨3, _⟩ => show ((((b.val * 1024 + n.val) * 3 + s.val) * 12 + h.val) * 64 + d.val) % 2304 = s.val * 768 + h.val * 64 + d.val; omega)
  rw [e, jointProj_at, tokOf_tokRow_tokCol]

/-- The query matrix: transposing, un-reshaping and un-slicing lands on channel `64 h + d` of the joint projection. -/
theorem query_at (b : Fin 8) (h : Fin 12) (n : Fin 1024) (d : Fin 64) :
    val_main_v7 (F := Ideal) x0 x1 x2 (ix4 b h n d) = Qof x0 x1 x2 b n (chan h d) := by
  rw [val_main_v7_apply, val_main_v6_apply, val_main_v5_apply]
  have e : idx_main_v5 (idx_main_v6 (idx_main_v7 (ix4 b h n d))) = ix5 b n (⟨0, by omega⟩ : Fin 3) h d :=
    funext fun a => Fin.ext (by
      have := b.isLt; have := n.isLt; have := h.isLt; have := d.isLt
      match a with
      | ⟨0, _⟩ => show (((b.val * 1024 + n.val) * 12 + h.val) * 64 + d.val) / 786432 = b.val; omega
      | ⟨1, _⟩ => show (((b.val * 1024 + n.val) * 12 + h.val) * 64 + d.val) / 768 % 1024 = n.val; omega
      | ⟨2, _⟩ => rfl
      | ⟨3, _⟩ => show (((b.val * 1024 + n.val) * 12 + h.val) * 64 + d.val) / 64 % 12 = h.val; omega
      | ⟨4, _⟩ => show (((b.val * 1024 + n.val) * 12 + h.val) * 64 + d.val) % 64 = d.val; omega)
  rw [e, regroup_at]
  unfold Qof
  exact congrArg (qkv x0 x1 x2 b n) (Fin.ext (by
    show 0 * 768 + h.val * 64 + d.val = (h.val * 64 + d.val); omega))

/-- The key matrix: transposing, un-reshaping and un-slicing lands on channel `768 + 64 h + d` of the joint projection. -/
theorem key_at (b : Fin 8) (h : Fin 12) (n : Fin 1024) (d : Fin 64) :
    val_main_v10 (F := Ideal) x0 x1 x2 (ix4 b h n d) = Kof x0 x1 x2 b n (chan h d) := by
  rw [val_main_v10_apply, val_main_v9_apply, val_main_v8_apply]
  have e : idx_main_v8 (idx_main_v9 (idx_main_v10 (ix4 b h n d))) = ix5 b n (⟨1, by omega⟩ : Fin 3) h d :=
    funext fun a => Fin.ext (by
      have := b.isLt; have := n.isLt; have := h.isLt; have := d.isLt
      match a with
      | ⟨0, _⟩ => show (((b.val * 1024 + n.val) * 12 + h.val) * 64 + d.val) / 786432 = b.val; omega
      | ⟨1, _⟩ => show (((b.val * 1024 + n.val) * 12 + h.val) * 64 + d.val) / 768 % 1024 = n.val; omega
      | ⟨2, _⟩ => rfl
      | ⟨3, _⟩ => show (((b.val * 1024 + n.val) * 12 + h.val) * 64 + d.val) / 64 % 12 = h.val; omega
      | ⟨4, _⟩ => show (((b.val * 1024 + n.val) * 12 + h.val) * 64 + d.val) % 64 = d.val; omega)
  rw [e, regroup_at]
  unfold Kof
  exact congrArg (qkv x0 x1 x2 b n) (Fin.ext (by
    show 1 * 768 + h.val * 64 + d.val = 768 + (h.val * 64 + d.val); omega))

/-- The value matrix: transposing, un-reshaping and un-slicing lands on channel `1536 + 64 h + d` of the joint projection. -/
theorem value_at (b : Fin 8) (h : Fin 12) (n : Fin 1024) (d : Fin 64) :
    val_main_v13 (F := Ideal) x0 x1 x2 (ix4 b h n d) = Vof x0 x1 x2 b n (chan h d) := by
  rw [val_main_v13_apply, val_main_v12_apply, val_main_v11_apply]
  have e : idx_main_v11 (idx_main_v12 (idx_main_v13 (ix4 b h n d))) = ix5 b n (⟨2, by omega⟩ : Fin 3) h d :=
    funext fun a => Fin.ext (by
      have := b.isLt; have := n.isLt; have := h.isLt; have := d.isLt
      match a with
      | ⟨0, _⟩ => show (((b.val * 1024 + n.val) * 12 + h.val) * 64 + d.val) / 786432 = b.val; omega
      | ⟨1, _⟩ => show (((b.val * 1024 + n.val) * 12 + h.val) * 64 + d.val) / 768 % 1024 = n.val; omega
      | ⟨2, _⟩ => rfl
      | ⟨3, _⟩ => show (((b.val * 1024 + n.val) * 12 + h.val) * 64 + d.val) / 64 % 12 = h.val; omega
      | ⟨4, _⟩ => show (((b.val * 1024 + n.val) * 12 + h.val) * 64 + d.val) % 64 = d.val; omega)
  rw [e, regroup_at]
  unfold Vof
  exact congrArg (qkv x0 x1 x2 b n) (Fin.ext (by
    show 2 * 768 + h.val * 64 + d.val = 1536 + (h.val * 64 + d.val); omega))

/-- Query, key and value matrices of image `b`, named once. -/
abbrev Qb (b : Fin 8) : Mat := Qof x0 x1 x2 b
abbrev Kb (b : Fin 8) : Mat := Kof x0 x1 x2 b
abbrev Vb (b : Fin 8) : Mat := Vof x0 x1 x2 b

/-- The scaled score: the inner product over the head's 64 columns, times 1/8. -/
theorem score_at (b : Fin 8) (h : Fin 12) (n m : Fin 1024) :
    val_main_v16 (F := Ideal) x0 x1 x2 (ix4 b h n m) = score (Qb x0 x1 x2 b) (Kb x0 x1 x2 b) h n m := by
  rw [val_main_v16_apply, val_main_v14_apply, val_main_v15_apply]
  unfold score
  show (∑ k : Fin 64, val_main_v7 (F := Ideal) x0 x1 x2 (lidx_main_v14 (ix4 b h n m) k)
        * val_main_v10 (F := Ideal) x0 x1 x2 (ridx_main_v14 (ix4 b h n m) k)) * Ideal.ofBits .f32 0x3E000000#32 = _
  refine congrArg (· * scale) (Finset.sum_congr rfl fun k _ => ?_)
  have el : lidx_main_v14 (ix4 b h n m) k = ix4 b h n k :=
    funext fun a => by
      match a with
      | ⟨0, _⟩ => rfl
      | ⟨1, _⟩ => rfl
      | ⟨2, _⟩ => rfl
      | ⟨3, _⟩ => rfl
  have er : ridx_main_v14 (ix4 b h n m) k = ix4 b h m k :=
    funext fun a => by
      match a with
      | ⟨0, _⟩ => rfl
      | ⟨1, _⟩ => rfl
      | ⟨2, _⟩ => rfl
      | ⟨3, _⟩ => rfl
  rw [el, er, query_at, key_at]

/-- Dropping the last axis of [8, 12, 1024, 1024] leaves [8, 12, 1024]. -/
theorem dropsLast : S8x12x1024x1024.Reduces [3] S8x12x1024 := by decide

/-- Index (b, h, n) with the coordinate `m` put back on the dropped last axis is (b, h, n, m). -/
theorem lift_ix3 (b : Fin 8) (h : Fin 12) (n m : Fin 1024) :
    dropsLast.lift (ix3 b h n) m = ix4 b h n m :=
  funext fun a => Fin.ext (by
    match a with
    | ⟨0, _⟩ => rfl
    | ⟨1, _⟩ => rfl
    | ⟨2, _⟩ => rfl
    | ⟨3, _⟩ => rfl)

/-- The max-reduce over key tokens is the fold of `max` from -∞ over the row of scores. -/
theorem rowMaxFold_at (b : Fin 8) (h : Fin 12) (n : Fin 1024) :
    val_main_v17 (F := Ideal) x0 x1 x2 (ix3 b h n) = rowMax (Qb x0 x1 x2 b) (Kb x0 x1 x2 b) h n := by
  unfold val_main_v17
  rw [Host.reduce_eq_fold_single FloatOps.maximumf _ _ _ dropsLast h_S_ (ix3 b h n)]
  unfold rowMax
  have ef : (val_main_v16 (F := Ideal) x0 x1 x2 ∘ dropsLast.lift (ix3 b h n))
      = fun m : Fin 1024 => score (Qb x0 x1 x2 b) (Kb x0 x1 x2 b) h n m :=
    funext fun (m : Fin 1024) =>
      (congrArg (val_main_v16 (F := Ideal) x0 x1 x2) (lift_ix3 b h n m)).trans (score_at x0 x1 x2 b h n m)
  rw [ef]
  rfl

/-- `max (-∞) ·` of that fold changes nothing: the fold starts at -∞, so it is at least -∞. -/
theorem rowMax_at (b : Fin 8) (h : Fin 12) (n : Fin 1024) :
    val_main_v19 (F := Ideal) x0 x1 x2 (ix3 b h n) = rowMax (Qb x0 x1 x2 b) (Kb x0 x1 x2 b) h n := by
  rw [val_main_v19_apply, val_main_v18_apply, rowMaxFold_at]
  show max negInf (rowMax (Qb x0 x1 x2 b) (Kb x0 x1 x2 b) h n) = _
  exact max_eq_right (Finset.le_fold_max negInf |>.2 (Or.inl le_rfl))

/-- A score less its row's maximum (broadcast back along the row), exponentiated. -/
theorem expo_at (b : Fin 8) (h : Fin 12) (n m : Fin 1024) :
    val_main_v23 (F := Ideal) x0 x1 x2 (ix4 b h n m) = expo (Qb x0 x1 x2 b) (Kb x0 x1 x2 b) h n m := by
  rw [val_main_v23_apply, val_main_v22_apply, val_main_v21_apply, val_main_v20_apply]
  have e : idx_main_v20 (idx_main_v21 (ix4 b h n m)) = ix3 b h n :=
    funext fun a => by
      match a with
      | ⟨0, _⟩ => rfl
      | ⟨1, _⟩ => rfl
      | ⟨2, _⟩ => rfl
  rw [e, rowMax_at, score_at]
  rfl

/-- The row's sum of exponentials: the sum starts at the constant 0, which adds nothing. -/
theorem denom_at (b : Fin 8) (h : Fin 12) (n : Fin 1024) :
    val_main_v24 (F := Ideal) x0 x1 x2 (ix3 b h n) = denom (Qb x0 x1 x2 b) (Kb x0 x1 x2 b) h n := by
  rw [val_main_v24_apply]
  show Ideal.ofBits .f32 0x00000000#32 + _ = _
  rw [Ideal.ofBits_zero_f32, zero_add]
  unfold denom
  refine Finset.sum_congr rfl fun k _ => ?_
  have e : idx_main_v24 (ix3 b h n) k = ix4 b h n k :=
    funext fun a => by
      match a with
      | ⟨0, _⟩ => rfl
      | ⟨1, _⟩ => rfl
      | ⟨2, _⟩ => rfl
      | ⟨3, _⟩ => rfl
  rw [e, expo_at]

/-- The attention weight: the exponential over its row's sum (broadcast back along the row). -/
theorem weight_at (b : Fin 8) (h : Fin 12) (n m : Fin 1024) :
    val_main_v27 (F := Ideal) x0 x1 x2 (ix4 b h n m) = weight (Qb x0 x1 x2 b) (Kb x0 x1 x2 b) h n m := by
  rw [val_main_v27_apply, val_main_v26_apply, val_main_v25_apply]
  have e : idx_main_v25 (idx_main_v26 (ix4 b h n m)) = ix3 b h n :=
    funext fun a => by
      match a with
      | ⟨0, _⟩ => rfl
      | ⟨1, _⟩ => rfl
      | ⟨2, _⟩ => rfl
  rw [e, denom_at, expo_at]
  rfl

/-- A head's output: the weights of query token `n` against the head's value column at depth `d`. -/
theorem headOut_at (b : Fin 8) (h : Fin 12) (n : Fin 1024) (d : Fin 64) :
    val_main_v28 (F := Ideal) x0 x1 x2 (ix4 b h n d) = headOut (Qb x0 x1 x2 b) (Kb x0 x1 x2 b) (Vb x0 x1 x2 b) h n d := by
  rw [val_main_v28_apply]
  unfold headOut
  refine Finset.sum_congr rfl fun k _ => ?_
  have el : lidx_main_v28 (ix4 b h n d) k = ix4 b h n k :=
    funext fun a => by
      match a with
      | ⟨0, _⟩ => rfl
      | ⟨1, _⟩ => rfl
      | ⟨2, _⟩ => rfl
      | ⟨3, _⟩ => rfl
  have er : ridx_main_v28 (ix4 b h n d) k = ix4 b h k d :=
    funext fun a => by
      match a with
      | ⟨0, _⟩ => rfl
      | ⟨1, _⟩ => rfl
      | ⟨2, _⟩ => rfl
      | ⟨3, _⟩ => rfl
  rw [el, er, weight_at, value_at]

/-- Transposing back and reshaping to pixels lays the heads side by side: channel `j` of pixel (r, c) is depth
    `j % 64` of head `j / 64` at token `32 r + c`. -/
theorem concat_at (b : Fin 8) (r c : Fin 32) (j : Fin 768) :
    val_main_v30 (F := Ideal) x0 x1 x2 (ix4 b r c j)
      = concat (Qb x0 x1 x2 b) (Kb x0 x1 x2 b) (Vb x0 x1 x2 b) (tokOf r c) j := by
  rw [val_main_v30_apply, val_main_v29_apply]
  have e : idx_main_v29 (idx_main_v30 (ix4 b r c j)) = ix4 b (headOf j) (tokOf r c) (depthOf j) :=
    funext fun a => Fin.ext (by
      have := b.isLt; have := r.isLt; have := c.isLt; have := j.isLt
      match a with
      | ⟨0, _⟩ => show (((b.val * 32 + r.val) * 32 + c.val) * 768 + j.val) / 786432 = b.val; omega
      | ⟨1, _⟩ => show (((b.val * 32 + r.val) * 32 + c.val) * 768 + j.val) / 64 % 12 = j.val / 64; omega
      | ⟨2, _⟩ => show (((b.val * 32 + r.val) * 32 + c.val) * 768 + j.val) / 768 % 1024 = r.val * 32 + c.val; omega
      | ⟨3, _⟩ => show (((b.val * 32 + r.val) * 32 + c.val) * 768 + j.val) % 64 = j.val % 64; omega)
  rw [e, headOut_at]
  rfl

variable (x3 : (⟨S768x768, .f32⟩ : BufTy).Contents (Elt Ideal)) (x4 : (⟨S768, .f32⟩ : BufTy).Contents (Elt Ideal))

/-- The output projection plus its bias, at pixel (r, c) of image `b` and channel `j`. -/
theorem proj_at (b : Fin 8) (r c : Fin 32) (j : Fin 768) :
    val_main_v34 (F := Ideal) x0 x1 x2 x3 x4 (ix4 b r c j) = proj x0 x1 x2 x3 x4 b (tokOf r c) j := by
  rw [val_main_v34_apply, val_main_v31_apply, val_main_v33_apply, val_main_v32_apply]
  unfold proj
  have eb : idx_main_v32 (idx_main_v33 (ix4 b r c j)) = ix1 j :=
    funext fun a => by
      match a with
      | ⟨0, _⟩ => rfl
  rw [eb]
  show (∑ k : Fin 768, val_main_v30 (F := Ideal) x0 x1 x2 (lidx_main_v31 (ix4 b r c j) k) * x3 (ridx_main_v31 (ix4 b r c j) k))
      + x4 (ix1 j) = _
  refine congrArg (· + x4 (ix1 j)) (Finset.sum_congr rfl fun k _ => ?_)
  have el : lidx_main_v31 (ix4 b r c j) k = ix4 b r c k :=
    funext fun a => by
      match a with
      | ⟨0, _⟩ => rfl
      | ⟨1, _⟩ => rfl
      | ⟨2, _⟩ => rfl
      | ⟨3, _⟩ => rfl
  have er : ridx_main_v31 (ix4 b r c j) k = ix2 k j :=
    funext fun a => by
      match a with
      | ⟨0, _⟩ => rfl
      | ⟨1, _⟩ => rfl
  rw [el, er, concat_at]

end Stages

/-- The reference program's result is the attention function `G` of its five arguments, index by index. -/
theorem reference_eq_G
    (x0 : (⟨S8x32x32x768, .f32⟩ : BufTy).Contents (Elt Ideal)) (x1 : (⟨S768x2304, .f32⟩ : BufTy).Contents (Elt Ideal))
    (x2 : (⟨S2304, .f32⟩ : BufTy).Contents (Elt Ideal)) (x3 : (⟨S768x768, .f32⟩ : BufTy).Contents (Elt Ideal))
    (x4 : (⟨S768, .f32⟩ : BufTy).Contents (Elt Ideal)) :
    Cert.ReferenceIdeal.Read.val_main_v34 (F := Ideal) x0 x1 x2 x3 x4 = Cert.Attn.G x0 x1 x2 x3 x4 := by
  funext i
  obtain ⟨b, r, c, j, rfl⟩ : ∃ b r c j, i = ix4 b r c j := ⟨_, _, _, _, eq_ix4 i⟩
  exact proj_at x0 x1 x2 x3 x4 b r c j

end Cert.Attn.Ref

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.Tile.lean ====
/-
  One tile of one head of the attention kernel, and what it computes on the extended reals.

  From an image's query, key and value matrices (1024 tokens by 768 columns) the kernel cuts a head's 64 columns, takes
  256 query rows, multiplies them against all 1024 keys of the head (a 256 × 64 by 64 × 1024 product), scales by 1/8,
  subtracts each row's maximum, exponentiates, divides by the row's sum, and multiplies the 256 × 1024 weights against
  the head's 1024 × 64 values. Changes of float format are the identity on the extended reals, a product into the zero
  accumulator is the plain sum over the contraction index, a lane reduction is a fold of `max` or a sum over the row:
  so entry (r, d) of the tile at rows 256 t … and columns 64 h … is the specification's head output for token
  256 t + r at depth d — the same term, sum for sum.
-/
import proofs.«157842_j3736621547996_2_alg».proof.KernelIdeal
import proofs.«157842_j3736621547996_2_alg».proof.Proof.Spec
import proofs.«157842_j3736621547996_2_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

namespace Cert.Attn.Tile

open Idealize.ShloMosaic Idealize.ShloMosaic.ValueIdx Cert.KernelIdeal
open Cert.KernelIdeal.Facts₀

/-! ## The tile, at any float instance -/
section Defs
variable {F : FTy → Type} [FloatOps F] [Cert.KernelIdeal.Facts]

/-- The 64 columns of a head: columns `oh 1 …` of a 1024 × 768 matrix. -/
def headCols (x : FVec F S1024x768 .bf16) (oh : Fin 2 → Nat) (hh : S1024x768.Slices oh S1024x64) : FVec F S1024x64 .bf16 :=
  extractStridedSlice S1024x64 oh x hh

/-- The scaled scores of 256 query rows (rows `oq 0 …` of the head's queries) against the head's 1024 keys. -/
def scores (qh kh : FVec F S1024x64 .bf16) (oq : Fin 2 → Nat) (hq : S1024x64.Slices oq S256x64) : FVec F S256x1024 .f32 :=
  mulf (matmul dot_S256x64_S64x1024_S256x1024_1_0_0_1_n_n none (extractStridedSlice S256x64 oq qh hq)
      (transpose S64x1024 [1, 0] kh transposes_S1024x64_p1_0_S64x1024) (constant S256x1024 .f32 0x00000000#32))
    (broadcast S256x1024 (Scalar.ofBits .f32 0x3E000000#32))

/-- Each row shifted by its maximum, exponentiated and divided by its sum. -/
def rowSoftmax (s : FVec F S256x1024 .f32) : FVec F S256x1024 .f32 :=
  have e : FVec F S256x1024 .f32 := exp (subf s (broadcastTo S256x1024 (shapeCast S256x1
    (multiReduction .maximumf [1] S256 s 0xFF800000#32 reduces_S256x1024_S256 (.inl rfl) rfl) shapeCasts_S256_S256x1) broadcasts_S256x1_S256x1024))
  divf e (broadcastTo S256x1024 (shapeCast S256x1
    (multiReduction .add [1] S256 e 0x00000000#32 reduces_S256x1024_S256 (.inl rfl) rfl) shapeCasts_S256_S256x1) broadcasts_S256x1_S256x1024)

/-- The tile: the weights of 256 query rows against the head's values. -/
def tile (q k v : FVec F S1024x768 .bf16) (oh : Fin 2 → Nat) (hh : S1024x768.Slices oh S1024x64)
    (oq : Fin 2 → Nat) (hq : S1024x64.Slices oq S256x64) : FVec F S256x64 .bf16 :=
  shapeCast S256x64 (truncf .bf16 (matmul dot_S256x1024_S1024x64_S256x64_1_0_0_1_n_n none
    (truncf .bf16 (rowSoftmax (scores (headCols q oh hh) (headCols k oh hh) oq hq)) bitsLt_bf16_f32)
    (headCols v oh hh) (constant S256x64 .f32 0x00000000#32)) bitsLt_bf16_f32) shapeCasts_S256x64_S256x64

end Defs

/-! ## Its value on the extended reals -/
section Value
variable [Cert.KernelIdeal.Facts]

/-- A 1024 × 768 array as a token-by-column matrix. -/
def matOf (x : FVec Ideal S1024x768 .bf16) : Attn.Mat := fun n j => x (ix2 n j)

/-- Row `r` of the tile of query rows `256 t …`, as a token. -/
def rowOf (t : Fin 4) (r : Fin 256) : Fin 1024 := ⟨t.val * 256 + r.val, by have := t.isLt; have := r.isLt; omega⟩

/-- The three plain products of the kernel. -/
theorem plain_qk : PlainDot.IsPlain dot_S256x64_S64x1024_S256x1024_1_0_0_1_n_n := ⟨rfl, rfl, rfl, rfl, rfl, rfl⟩
theorem plain_pv : PlainDot.IsPlain dot_S256x1024_S1024x64_S256x64_1_0_0_1_n_n := ⟨rfl, rfl, rfl, rfl, rfl, rfl⟩
theorem plain_proj : PlainDot.IsPlain dot_S1024x768_S768x768_S1024x768_1_0_0_1_n_n := ⟨rfl, rfl, rfl, rfl, rfl, rfl⟩

/-- A plain product into the zero accumulator, at entry (p, q), whatever the operands' float formats. -/
theorem matmul_zero_plain {M K N : Nat} {φ₁ φ₂ : FTy} (d : DotDims ⟨2, ![M, K]⟩ ⟨2, ![K, N]⟩ ⟨2, ![M, N]⟩) (h : PlainDot.IsPlain d)
    (l : FVec Ideal ⟨2, ![M, K]⟩ φ₁) (r : FVec Ideal ⟨2, ![K, N]⟩ φ₂) (p : Fin M) (q : Fin N) :
    matmul d none l r (constant ⟨2, ![M, N]⟩ .f32 0x00000000#32) (ix2 p q) = ∑ k : Fin K, l (ix2 p k) * r (ix2 k q) :=
  (Ideal.matmul_constant_zero_apply d none l r (ix2 p q)).trans (PlainDot.sum_contr d h l r p q)

/-- Entry (m, e) of a head's columns is the matrix at column `64 h + e`. -/
theorem headCols_apply (x : FVec Ideal S1024x768 .bf16) (oh : Fin 2 → Nat) (hh : S1024x768.Slices oh S1024x64) (h : Fin 12)
    (h0 : oh 0 = 0) (h1 : oh 1 = h.val * 64) (m : Fin 1024) (e : Fin 64) :
    headCols x oh hh (ix2 m e) = matOf x m (Attn.chan h e) := by
  unfold headCols
  refine extractStridedSlice_apply oh x hh (ix2 m e) (ix2 m (Attn.chan h e)) fun a => ?_
  match a with
  | ⟨0, _⟩ => show m.val = oh 0 + m.val; omega
  | ⟨1, _⟩ => show h.val * 64 + e.val = oh 1 + e.val; omega

/-- A column of 256 numbers, laid out as 256 × 1 and repeated along 1024 columns, read at (r, m): the number at r. -/
theorem colBroadcast_apply (v : FVec Ideal S256 .f32) (r : Fin 256) (m : Fin 1024) :
    broadcastTo S256x1024 (shapeCast S256x1 v shapeCasts_S256_S256x1) broadcasts_S256x1_S256x1024 (ix2 r m) = v (ix1 r) := by
  refine (broadcastTo_apply _ broadcasts_S256x1_S256x1024 (ix2 r m) (ix2 r 0) fun a => ?_).trans ?_
  · match a with
    | ⟨0, _⟩ => rfl
    | ⟨1, _⟩ => rfl
  · refine shapeCast_apply v shapeCasts_S256_S256x1 (ix2 r 0) (ix1 r) ?_
    rw [Shape.rowMajor_val_one, Shape.rowMajor_val_two]
    show r.val = r.val * 1 + 0
    omega

/-- The index a reduction over the columns inserts: row r, column m. -/
theorem lift_row (r : Fin 256) (m : Fin 1024) : reduces_S256x1024_S256.lift (ix1 r) m = ix2 r m :=
  funext fun a => Fin.ext (by match a with | ⟨0, _⟩ => rfl | ⟨1, _⟩ => rfl)

/-- A row's maximum: the fold of `max` from -∞ over the row. -/
theorem rowMax_apply (s : FVec Ideal S256x1024 .f32) (hφ : FKind.Formats .f32)
    (hacc : (0xFF800000#32 : BitVec 32) = FKind.maximumf.neutral .f32 hφ) (r : Fin 256) :
    multiReduction .maximumf [1] S256 s 0xFF800000#32 reduces_S256x1024_S256 hφ hacc (ix1 r)
      = (Finset.univ : Finset (Fin 1024)).fold max Attn.negInf (fun m => s (ix2 r m)) := by
  refine (Ideal.multiReduction_maximumf_single s 0xFF800000#32 reduces_S256x1024_S256 hφ hacc (ix1 r)).trans ?_
  exact congrArg (fun f => (Finset.univ : Finset (Fin 1024)).fold max Attn.negInf f) (funext fun m => congrArg s (lift_row r m))

/-- A row's sum. -/
theorem rowSum_apply (s : FVec Ideal S256x1024 .f32) (hφ : FKind.Formats .f32)
    (hacc : (0x00000000#32 : BitVec 32) = FKind.add.neutral .f32 hφ) (r : Fin 256) :
    multiReduction .add [1] S256 s 0x00000000#32 reduces_S256x1024_S256 hφ hacc (ix1 r) = ∑ m : Fin 1024, s (ix2 r m) := by
  refine (Ideal.multiReduction_add_single s 0x00000000#32 reduces_S256x1024_S256 hφ hacc (ix1 r)).trans ?_
  exact Finset.sum_congr rfl fun m _ => congrArg s (lift_row r m)

/-- The scores at (r, m): the inner product of query row `256 t + r` and key row m over the head's 64 columns, times 1/8. -/
theorem scores_apply (qh kh : FVec Ideal S1024x64 .bf16) (oq : Fin 2 → Nat) (hq : S1024x64.Slices oq S256x64) (t : Fin 4)
    (hq0 : oq 0 = t.val * 256) (hq1 : oq 1 = 0) (r : Fin 256) (m : Fin 1024) :
    scores qh kh oq hq (ix2 r m) = (∑ e : Fin 64, qh (ix2 (rowOf t r) e) * kh (ix2 m e)) * Attn.scale := by
  unfold scores
  show matmul dot_S256x64_S64x1024_S256x1024_1_0_0_1_n_n none (extractStridedSlice S256x64 oq qh hq)
      (transpose S64x1024 [1, 0] kh transposes_S1024x64_p1_0_S64x1024) (constant S256x1024 .f32 0x00000000#32) (ix2 r m) * Attn.scale = _
  refine congrArg (· * Attn.scale) ?_
  refine (matmul_zero_plain _ plain_qk _ _ r m).trans (Finset.sum_congr rfl fun e _ => ?_)
  have hl : extractStridedSlice S256x64 oq qh hq (ix2 r e) = qh (ix2 (rowOf t r) e) :=
    extractStridedSlice_apply oq qh hq (ix2 r e) (ix2 (rowOf t r) e) fun a => by
      match a with
      | ⟨0, _⟩ => show t.val * 256 + r.val = oq 0 + r.val; omega
      | ⟨1, _⟩ => show e.val = oq 1 + e.val; omega
  have hr : transpose S64x1024 [1, 0] kh transposes_S1024x64_p1_0_S64x1024 (ix2 e m) = kh (ix2 m e) :=
    transpose_apply [1, 0] kh transposes_S1024x64_p1_0_S64x1024 (ix2 e m) (ix2 m e) fun b => by
      match b with
      | ⟨0, _⟩ => rfl
      | ⟨1, _⟩ => rfl
  rw [hl, hr]

/-- The weights at (r, m): the score shifted by its row's maximum, exponentiated, over the row's sum of these. -/
theorem rowSoftmax_apply (s : FVec Ideal S256x1024 .f32) (r : Fin 256) (m : Fin 1024) :
    rowSoftmax s (ix2 r m)
      = Ideal.div (Ideal.exp (s (ix2 r m) - (Finset.univ : Finset (Fin 1024)).fold max Attn.negInf (fun m' => s (ix2 r m'))))
          (∑ m'' : Fin 1024, Ideal.exp (s (ix2 r m'') - (Finset.univ : Finset (Fin 1024)).fold max Attn.negInf (fun m' => s (ix2 r m')))) := by
  unfold rowSoftmax
  have hexp : ∀ m₁ : Fin 1024,
      exp (subf s (broadcastTo S256x1024 (shapeCast S256x1
        (multiReduction .maximumf [1] S256 s 0xFF800000#32 reduces_S256x1024_S256 (.inl rfl) rfl) shapeCasts_S256_S256x1) broadcasts_S256x1_S256x1024)) (ix2 r m₁)
        = Ideal.exp (s (ix2 r m₁) - (Finset.univ : Finset (Fin 1024)).fold max Attn.negInf (fun m' => s (ix2 r m'))) := fun m₁ => by
    show Ideal.exp (s (ix2 r m₁) - broadcastTo S256x1024 (shapeCast S256x1
        (multiReduction .maximumf [1] S256 s 0xFF800000#32 reduces_S256x1024_S256 (.inl rfl) rfl) shapeCasts_S256_S256x1) broadcasts_S256x1_S256x1024 (ix2 r m₁)) = _
    refine congrArg (fun z => Ideal.exp (s (ix2 r m₁) - z)) ?_
    exact (colBroadcast_apply _ r m₁).trans (rowMax_apply s _ _ r)
  show Ideal.div (exp (subf s _) (ix2 r m)) (broadcastTo S256x1024 (shapeCast S256x1 (multiReduction .add [1] S256 (exp (subf s _)) 0x00000000#32 reduces_S256x1024_S256 (.inl rfl) rfl) shapeCasts_S256_S256x1) broadcasts_S256x1_S256x1024 (ix2 r m)) = _
  refine congr (congrArg Ideal.div (hexp m)) ?_
  refine (colBroadcast_apply _ r m).trans ((rowSum_apply _ _ _ r).trans ?_)
  exact Finset.sum_congr rfl fun m'' _ => hexp m''

/-- Entry (r, d) of the tile of head h at query rows `256 t …` is the head's output for token `256 t + r` at depth d. -/
theorem tile_apply (q k v : FVec Ideal S1024x768 .bf16) (oh : Fin 2 → Nat) (hh : S1024x768.Slices oh S1024x64)
    (oq : Fin 2 → Nat) (hq : S1024x64.Slices oq S256x64) (h : Fin 12) (t : Fin 4)
    (h0 : oh 0 = 0) (h1 : oh 1 = h.val * 64) (hq0 : oq 0 = t.val * 256) (hq1 : oq 1 = 0) (r : Fin 256) (d : Fin 64) :
    tile q k v oh hh oq hq (ix2 r d) = Attn.headOut (matOf q) (matOf k) (matOf v) h (rowOf t r) d := by
  unfold tile
  rw [shapeCast_self]
  show matmul dot_S256x1024_S1024x64_S256x64_1_0_0_1_n_n none
      (truncf .bf16 (rowSoftmax (scores (headCols q oh hh) (headCols k oh hh) oq hq)) bitsLt_bf16_f32)
      (headCols v oh hh) (constant S256x64 .f32 0x00000000#32) (ix2 r d) = _
  refine (matmul_zero_plain _ plain_pv _ _ r d).trans ?_
  unfold Attn.headOut
  refine Finset.sum_congr rfl fun m _ => ?_
  have hs : ∀ m' : Fin 1024, scores (headCols q oh hh) (headCols k oh hh) oq hq (ix2 r m')
      = Attn.score (matOf q) (matOf k) h (rowOf t r) m' := fun m' => by
    rw [scores_apply _ _ oq hq t hq0 hq1 r m']
    unfold Attn.score
    exact congrArg (· * Attn.scale) (Finset.sum_congr rfl fun e _ => by
      rw [headCols_apply q oh hh h h0 h1, headCols_apply k oh hh h h0 h1])
  have hw : truncf .bf16 (rowSoftmax (scores (headCols q oh hh) (headCols k oh hh) oq hq)) bitsLt_bf16_f32 (ix2 r m)
      = Attn.weight (matOf q) (matOf k) h (rowOf t r) m := by
    show rowSoftmax (scores (headCols q oh hh) (headCols k oh hh) oq hq) (ix2 r m) = _
    rw [rowSoftmax_apply]
    unfold Attn.weight Attn.denom Attn.expo Attn.rowMax
    simp only [hs]
  rw [hw, headCols_apply v oh hh h h0 h1]

end Value

end Cert.Attn.Tile

end
-- ==== Proof.Concat.lean ====
/-
  The heads side by side: the 48 tiles the kernel writes into its 1024 × 768 scratch, read back as one matrix.

  Tile (h, t) — head h < 12, query rows 256 t …, t < 4 — is written at rows 256 t … 256 t + 255 and columns
  64 h … 64 h + 63. The 48 rectangles cover the scratch (row n lies in tile n / 256, column j in head j / 64), and
  each tile's entry at its local index (r, d) is the specification's head output for token 256 t + r at depth d, which
  is the concatenation at (256 t + r, 64 h + d). So whatever order the tiles were written in, the scratch read back
  is the concatenation of the heads' outputs.
-/
import proofs.«157842_j3736621547996_2_alg».proof.Proof.Tile

noncomputable section

namespace Cert.Attn

theorem headOf_chan (h : Fin 12) (d : Fin 64) : headOf (chan h d) = h :=
  Fin.ext (by have := d.isLt; show (h.val * 64 + d.val) / 64 = h.val; omega)

theorem depthOf_chan (h : Fin 12) (d : Fin 64) : depthOf (chan h d) = d :=
  Fin.ext (by have := d.isLt; show (h.val * 64 + d.val) % 64 = d.val; omega)

end Cert.Attn

namespace Cert.Attn.Tile

open Idealize.ShloMosaic Idealize.ShloMosaic.ValueIdx Cert.KernelIdeal
open Cert.KernelIdeal.Facts₀

variable [Cert.KernelIdeal.Facts]

/-- A head's 64 columns lie inside the 768; a tile's 256 rows inside the 1024; a tile inside the scratch. -/
theorem slices_head (h : Fin 12) : S1024x768.Slices ![0, h.val * 64] S1024x64 :=
  ⟨rfl, fun a => by
    match a with
    | ⟨0, _⟩ => show 0 + 1024 ≤ 1024; omega
    | ⟨1, _⟩ => have := h.isLt; show h.val * 64 + 64 ≤ 768; omega⟩

theorem slices_rows (t : Fin 4) : S1024x64.Slices ![t.val * 256, 0] S256x64 :=
  ⟨rfl, fun a => by
    match a with
    | ⟨0, _⟩ => have := t.isLt; show t.val * 256 + 256 ≤ 1024; omega
    | ⟨1, _⟩ => show 0 + 64 ≤ 64; omega⟩

theorem inb_tile (h : Fin 12) (t : Fin 4) :
    ∀ a : Fin S1024x768.rank, (![t.val * 256, h.val * 64] : Fin 2 → Nat) a + S256x64.size a ≤ S1024x768.size a := fun a => by
  match a with
  | ⟨0, _⟩ => have := t.isLt; show t.val * 256 + 256 ≤ 1024; omega
  | ⟨1, _⟩ => have := h.isLt; show h.val * 64 + 64 ≤ 768; omega

/-- Tile (h, t) as a piece of the scratch: its rectangle and what is stored there. -/
def tilePiece (q k v : FVec Ideal S1024x768 .bf16) (h : Fin 12) (t : Fin 4) : View.Piece (Elt Ideal) S1024x768 .bf16 :=
  ⟨Rect.unit (s := S1024x768) ![t.val * 256, h.val * 64] S256x64.size (inb_tile h t),
    tile q k v ![0, h.val * 64] (slices_head h) ![t.val * 256, 0] (slices_rows t)⟩

/-- The 48 pieces, last written first: heads 11 … 0, and within a head the row tiles 3 … 0. -/
def piecesOf (q k v : FVec Ideal S1024x768 .bf16) : List (View.Piece (Elt Ideal) S1024x768 .bf16) :=
  (List.finRange 12).reverse.flatMap fun h => (List.finRange 4).reverse.map fun t => tilePiece q k v h t

theorem mem_piecesOf (q k v : FVec Ideal S1024x768 .bf16) (p : View.Piece (Elt Ideal) S1024x768 .bf16) :
    p ∈ piecesOf q k v ↔ ∃ h t, p = tilePiece q k v h t := by
  simp only [piecesOf, List.mem_flatMap, List.mem_map, List.mem_reverse, List.mem_finRange, true_and]
  exact ⟨fun ⟨h, t, e⟩ => ⟨h, t, e.symm⟩, fun ⟨h, t, e⟩ => ⟨h, t, e.symm⟩⟩

/-- The concatenation of the heads' outputs, as a 1024 × 768 array. -/
def concatFn (q k v : FVec Ideal S1024x768 .bf16) : S1024x768.Idx → EReal :=
  fun y => Attn.concat (matOf q) (matOf k) (matOf v) (y 0) (y 1)

/-- A tile's entry at its local index (r, d) is the concatenation at the scratch index under it. -/
theorem tilePiece_spec (q k v : FVec Ideal S1024x768 .bf16) (h : Fin 12) (t : Fin 4) (r : Fin 256) (d : Fin 64) :
    (tilePiece q k v h t).2 (ix2 r d) = concatFn q k v ((tilePiece q k v h t).1.emb (ix2 r d)) := by
  have e0 : ((tilePiece q k v h t).1.emb (ix2 r d)) 0 = rowOf t r :=
    Fin.ext (by show t.val * 256 + 1 * r.val = t.val * 256 + r.val; omega)
  have e1 : ((tilePiece q k v h t).1.emb (ix2 r d)) 1 = Attn.chan h d :=
    Fin.ext (by show h.val * 64 + 1 * d.val = h.val * 64 + d.val; omega)
  show tile q k v ![0, h.val * 64] (slices_head h) ![t.val * 256, 0] (slices_rows t) (ix2 r d)
    = Attn.concat (matOf q) (matOf k) (matOf v) (((tilePiece q k v h t).1.emb (ix2 r d)) 0) (((tilePiece q k v h t).1.emb (ix2 r d)) 1)
  rw [e0, e1, tile_apply q k v _ _ _ _ h t rfl rfl rfl rfl r d]
  unfold Attn.concat
  rw [Attn.headOf_chan, Attn.depthOf_chan]

/-- The scratch read back: the canonical contents of the 48 pieces is the concatenation. -/
theorem canon_pieces (q k v : FVec Ideal S1024x768 .bf16) : View.canon (piecesOf q k v) = concatFn q k v := by
  funext y
  refine View.canon_apply_of_pieces (concatFn q k v) (piecesOf q k v) (fun p hp x => ?_) y ?_
  · obtain ⟨h, t, rfl⟩ := (mem_piecesOf q k v p).mp hp
    obtain ⟨r, d, rfl⟩ : ∃ (r : Fin 256) (d : Fin 64), x = ix2 r d := ⟨x 0, x 1, eq_ix2 x⟩
    exact tilePiece_spec q k v h t r d
  · have hy0 : (y 0).val < 1024 := (y 0).isLt
    have hy1 : (y 1).val < 768 := (y 1).isLt
    have hh : (y 1).val / 64 < 12 := by omega
    have ht : (y 0).val / 256 < 4 := by omega
    refine ⟨tilePiece q k v ⟨(y 1).val / 64, hh⟩ ⟨(y 0).val / 256, ht⟩, (mem_piecesOf q k v _).mpr ⟨_, _, rfl⟩, ?_⟩
    refine (Rect.mem_set_unit (s := S1024x768) (inb := inb_tile ⟨(y 1).val / 64, hh⟩ ⟨(y 0).val / 256, ht⟩)).mpr fun a => ?_
    match a with
    | ⟨0, _⟩ => show (y 0).val / 256 * 256 ≤ (y 0).val ∧ (y 0).val < (y 0).val / 256 * 256 + 256; omega
    | ⟨1, _⟩ => show (y 1).val / 64 * 64 ≤ (y 1).val ∧ (y 1).val < (y 1).val / 64 * 64 + 64; omega

end Cert.Attn.Tile

end
-- ==== Proof.Rows.lean ====
/-
  The kernel's four whole-matrix products, read entry by entry on the extended reals.

  From an image's block of tokens (1 × 1024 × 768), a 768 × 768 weight and a 1 × 768 bias the kernel forms
  `tokens · weight + bias` (the bias repeated down the rows): entry (n, j) is `∑ c < 768, x[0, n, c] · w[c, j] + b[0, j]`.
  It does so three times for the queries, keys and values, and once more at the end, on the heads laid side by side,
  for the result block, which it stores as 1 × 1024 × 768.
-/
import proofs.«157842_j3736621547996_2_alg».proof.Proof.Tile

noncomputable section

namespace Cert.Attn.Tile

open Idealize.ShloMosaic Idealize.ShloMosaic.ValueIdx Cert.KernelIdeal
open Cert.KernelIdeal.Facts₀

section Defs
variable {F : FTy → Type} [FloatOps F] [Cert.KernelIdeal.Facts]

/-- `tokens · weight + bias` for the block of one image, as the kernel spells it. -/
def projRows (xb : Vec F S1x1024x768 .f32) (wm : Vec F S768x768 .bf16) (bm : Vec F S1x768 .f32) : FVec F S1024x768 .bf16 :=
  truncf .bf16 (addf
    (matmul dot_S1024x768_S768x768_S1024x768_1_0_0_1_n_n none
      (truncf .bf16 (shapeCast S1024x768 xb shapeCasts_S1x1024x768_S1024x768) bitsLt_bf16_f32)
      (shapeCast S768x768 wm shapeCasts_S768x768_S768x768) (constant S1024x768 .f32 0x00000000#32))
    (broadcastTo S1024x768 (shapeCast S1x768 bm shapeCasts_S1x768_S1x768) broadcasts_S1x768_S1024x768)) bitsLt_bf16_f32

/-- The result block: `heads · weight + bias`, stored as 1 × 1024 × 768. -/
def outRows (cc : Vec F S1024x768 .bf16) (wm : Vec F S768x768 .bf16) (bm : Vec F S1x768 .f32) : FVec F S1x1024x768 .f32 :=
  shapeCast S1x1024x768 (addf
    (matmul dot_S1024x768_S768x768_S1024x768_1_0_0_1_n_n none cc
      (shapeCast S768x768 wm shapeCasts_S768x768_S768x768) (constant S1024x768 .f32 0x00000000#32))
    (broadcastTo S1024x768 (shapeCast S1x768 bm shapeCasts_S1x768_S1x768) broadcasts_S1x768_S1024x768)) shapeCasts_S1024x768_S1x1024x768

end Defs

section Value
variable [Cert.KernelIdeal.Facts]

/-- A 1 × 768 row repeated down 1024 rows, read at (n, j): the row at j. -/
theorem rowBroadcast_apply (bm : FVec Ideal S1x768 .f32) (n : Fin 1024) (j : Fin 768) :
    broadcastTo S1024x768 (shapeCast S1x768 bm shapeCasts_S1x768_S1x768) broadcasts_S1x768_S1024x768 (ix2 n j) = bm (ix2 0 j) := by
  rw [shapeCast_self]
  refine broadcastTo_apply bm broadcasts_S1x768_S1024x768 (ix2 n j) (ix2 0 j) fun a => ?_
  match a with
  | ⟨0, _⟩ => rfl
  | ⟨1, _⟩ => rfl

/-- A 1 × 1024 × 768 block read as 1024 × 768 at (n, c): the block at (0, n, c). -/
theorem dropUnit_apply (xb : FVec Ideal S1x1024x768 .f32) (n : Fin 1024) (c : Fin 768) :
    shapeCast S1024x768 xb shapeCasts_S1x1024x768_S1024x768 (ix2 n c) = xb (ix3 0 n c) := by
  refine shapeCast_apply xb shapeCasts_S1x1024x768_S1024x768 (ix2 n c) (ix3 0 n c) ?_
  rw [Shape.rowMajor_val_three, Shape.rowMajor_val_two]
  show (0 * 1024 + n.val) * 768 + c.val = n.val * 768 + c.val
  omega

/-- Entry (n, j) of `tokens · weight + bias`. -/
theorem projRows_apply (xb : FVec Ideal S1x1024x768 .f32) (wm : FVec Ideal S768x768 .bf16) (bm : FVec Ideal S1x768 .f32)
    (n : Fin 1024) (j : Fin 768) :
    (projRows (F := Ideal) xb wm bm (ix2 n j) : EReal) = (∑ c : Fin 768, xb (ix3 0 n c) * wm (ix2 c j)) + bm (ix2 0 j) := by
  unfold projRows
  show matmul dot_S1024x768_S768x768_S1024x768_1_0_0_1_n_n none
        (truncf .bf16 (shapeCast S1024x768 xb shapeCasts_S1x1024x768_S1024x768) bitsLt_bf16_f32)
        (shapeCast S768x768 wm shapeCasts_S768x768_S768x768) (constant S1024x768 .f32 0x00000000#32) (ix2 n j)
      + broadcastTo S1024x768 (shapeCast S1x768 bm shapeCasts_S1x768_S1x768) broadcasts_S1x768_S1024x768 (ix2 n j) = _
  rw [rowBroadcast_apply, shapeCast_self]
  refine congrArg (· + bm (ix2 0 j)) ?_
  refine (matmul_zero_plain _ plain_proj _ _ n j).trans (Finset.sum_congr rfl fun c _ => ?_)
  exact congrArg (· * wm (ix2 c j)) (dropUnit_apply xb n c)

/-- Entry (0, n, c) of the result block. -/
theorem outRows_apply (cc : FVec Ideal S1024x768 .bf16) (wm : FVec Ideal S768x768 .bf16) (bm : FVec Ideal S1x768 .f32)
    (n : Fin 1024) (c : Fin 768) :
    (outRows (F := Ideal) cc wm bm (ix3 0 n c) : EReal) = (∑ j : Fin 768, cc (ix2 n j) * wm (ix2 j c)) + bm (ix2 0 c) := by
  unfold outRows
  refine (shapeCast_apply _ shapeCasts_S1024x768_S1x1024x768 (ix3 0 n c) (ix2 n c) ?_).trans ?_
  · rw [Shape.rowMajor_val_three, Shape.rowMajor_val_two]
    show n.val * 768 + c.val = (0 * 1024 + n.val) * 768 + c.val
    omega
  · show matmul dot_S1024x768_S768x768_S1024x768_1_0_0_1_n_n none cc
          (shapeCast S768x768 wm shapeCasts_S768x768_S768x768) (constant S1024x768 .f32 0x00000000#32) (ix2 n c)
        + broadcastTo S1024x768 (shapeCast S1x768 bm shapeCasts_S1x768_S1x768) broadcasts_S1x768_S1024x768 (ix2 n c) = _
    rw [rowBroadcast_apply, shapeCast_self]
    exact congrArg (· + bm (ix2 0 c)) (matmul_zero_plain _ plain_proj _ _ n c)

end Value

end Cert.Attn.Tile

end
-- ==== Proof.Block.lean ====
/-
  What one grid point of the attention kernel leaves in its output block, as a function of its nine input blocks.

  The body computes the image's queries, keys and values (three `tokens · weight + bias` products), writes the 48
  head tiles into a scratch matrix, reads the scratch back whole and stores `scratch · weight + bias` as its
  1 × 1024 × 768 output block. The scratch read back is the canonical contents of the 48 stores, which is the heads'
  outputs side by side; so entry (0, n, c) of the block is
      ∑ j < 768, concat(Q, K, V)(n, j) · w_proj[j, c] + b_proj[0, c]
  with Q, K, V the three products of the image's token block.
-/
import proofs.«157842_j3736621547996_2_alg».proof.Proof.Concat
import proofs.«157842_j3736621547996_2_alg».proof.Proof.Rows
import proofs.«157842_j3736621547996_2_alg».proof.Proof.Gen.KernelIdeal.Frame

set_option maxRecDepth 16384

noncomputable section

namespace Cert.Attn.Block

open Idealize.ShloMosaic Idealize.ShloMosaic.ValueIdx Idealize.ShloMosaic.Tactic Cert.KernelIdeal Cert.KernelIdeal.Gen Cert.Attn.Tile

theorem hz3 : (![0, 0, 0] : Fin 3 → Nat) = fun _ => 0 := funext fun a => by fin_cases a <;> rfl
theorem hz2 : (![0, 0] : Fin 2 → Nat) = fun _ => 0 := funext fun a => by fin_cases a <;> rfl

/-- The output block of one grid point, from the point's input blocks: tokens, the three weights, the three biases,
    the projection weight and its bias. -/
def blockOut (x0 : Vec Ideal S1x1024x768 .f32) (x1 x2 x3 : Vec Ideal S768x768 .bf16) (x4 x5 x6 : Vec Ideal S1x768 .f32)
    (x7 : Vec Ideal S768x768 .bf16) (x8 : Vec Ideal S1x768 .f32) : Vec Ideal S1x1024x768 .f32 :=
  outRows (F := Ideal) (View.canon (piecesOf (projRows x0 x1 x4) (projRows x0 x2 x5) (projRows x0 x3 x6))) x7 x8

/-- The 48 stores the body makes into its scratch are the 48 head tiles of the three products, in the body's order. -/
theorem pieces_eq (c : Dev nD) (i : grid0.Coords) (arg1 : Memref sig .tc .vmem S1x1024x768 .f32) (harg1 : arg1.IsWhole) (arg2 : Memref sig .tc .vmem S768x768 .bf16) (harg2 : arg2.IsWhole) (arg3 : Memref sig .tc .vmem S768x768 .bf16) (harg3 : arg3.IsWhole) (arg4 : Memref sig .tc .vmem S768x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S1024x768 .bf16) (harg11 : arg11.IsWhole)
    (x0 : Vec Ideal S1x1024x768 .f32) (x1 : Vec Ideal S768x768 .bf16) (x2 : Vec Ideal S768x768 .bf16) (x3 : Vec Ideal S768x768 .bf16) (x4 : Vec Ideal S1x768 .f32) (x5 : Vec Ideal S1x768 .f32) (x6 : Vec Ideal S1x768 .f32) (x7 : Vec Ideal S768x768 .bf16) (x8 : Vec Ideal S1x768 .f32) :
    kernelRun0_A.sl.HS0_48 (F := Ideal) c arg1 harg1 arg2 harg2 arg3 harg3 arg4 harg4 arg5 harg5 arg6 harg6 arg7 harg7 x0 x1 x2 x3 x4 x5 x6
      = piecesOf (projRows x0 x1 x4) (projRows x0 x2 x5) (projRows x0 x3 x6) := by
  unfold kernelRun0_A.sl.HS0_48
  sl_unfold_run_names
  simp only [View.readAt_eq_ld, harg1.read_unread, harg2.read_unread, harg3.read_unread, harg4.read_unread, harg5.read_unread, harg6.read_unread, harg7.read_unread, harg8.read_unread, harg9.read_unread, View.ld_unit_zero (S := S1x1024x768) hz3, View.ld_unit_zero (S := S768x768) hz2, View.ld_unit_zero (S := S1x768) hz2]
  rfl

/-- What the body leaves in its output's staging buffer is `blockOut` of the input blocks. -/
theorem out_block (c : Dev nD) (i : grid0.Coords) (arg1 : Memref sig .tc .vmem S1x1024x768 .f32) (harg1 : arg1.IsWhole) (arg2 : Memref sig .tc .vmem S768x768 .bf16) (harg2 : arg2.IsWhole) (arg3 : Memref sig .tc .vmem S768x768 .bf16) (harg3 : arg3.IsWhole) (arg4 : Memref sig .tc .vmem S768x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S1024x768 .bf16) (harg11 : arg11.IsWhole)
    (x0 : Vec Ideal S1x1024x768 .f32) (x1 : Vec Ideal S768x768 .bf16) (x2 : Vec Ideal S768x768 .bf16) (x3 : Vec Ideal S768x768 .bf16) (x4 : Vec Ideal S1x768 .f32) (x5 : Vec Ideal S1x768 .f32) (x6 : Vec Ideal S1x768 .f32) (x7 : Vec Ideal S768x768 .bf16) (x8 : Vec Ideal S1x768 .f32) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 = blockOut x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  rw [View.canon_unit_zero hz3]
  unfold kernelRun0_A.sl.r_68 kernelRun0_A.sl.r_69 kernelRun0_A.sl.v1023
  rw [View.readCov_eq_canon', pieces_eq c i arg1 harg1 arg2 harg2 arg3 harg3 arg4 harg4 arg5 harg5 arg6 harg6 arg7 harg7 arg8 harg8 arg9 harg9 arg10 harg10 arg11 harg11 x0 x1 x2 x3 x4 x5 x6 x7 x8]
  simp only [View.readAt_eq_ld, harg1.read_unread, harg2.read_unread, harg3.read_unread, harg4.read_unread, harg5.read_unread, harg6.read_unread, harg7.read_unread, harg8.read_unread, harg9.read_unread, View.ld_unit_zero (S := S1x1024x768) hz3, View.ld_unit_zero (S := S768x768) hz2, View.ld_unit_zero (S := S1x768) hz2]
  have hld : (fun j => View.canon (piecesOf (projRows x0 x1 x4) (projRows x0 x2 x5) (projRows x0 x3 x6))
        ((Rect.unit (s := S1024x768) ![0, 0] ![1024, 768] inb_S1024x768_S1024x768_0_0).idx j))
      = View.canon (piecesOf (projRows x0 x1 x4) (projRows x0 x2 x5) (projRows x0 x3 x6)) :=
    View.ld_unit_zero (S := S1024x768) hz2 _ _
  rw [hld]
  rfl

/-- So at every grid point the output's staging buffer holds `blockOut` of the point's input blocks. -/
theorem outsAt_eq (m : (ℓ : Loc nD τ sig) → Buf (Elt Ideal) ℓ) (c : Dev nD) (t : Fin cfg0.N) :
    outsAt0 m c t = blockOut (iblk m c 0 t) (iblk m c 1 t) (iblk m c 2 t) (iblk m c 3 t) (iblk m c 4 t) (iblk m c 5 t)
      (iblk m c 6 t) (iblk m c 7 t) (iblk m c 8 t) := by
  unfold outsAt0
  exact out_block c _ _ _ _ _ _ _ _ _ _ _ _ _ _ _ _ _ _ _ _ _ _ _ _ _ _ _ _ _ _ _ _

/-- One of the three products as a token-by-column matrix. -/
def prodMat (xb : FVec Ideal S1x1024x768 .f32) (wm : FVec Ideal S768x768 .bf16) (bm : FVec Ideal S1x768 .f32) : Attn.Mat :=
  fun n j => (∑ c : Fin 768, xb (ix3 0 n c) * wm (ix2 c j)) + bm (ix2 0 j)

theorem matOf_projRows (xb : FVec Ideal S1x1024x768 .f32) (wm : FVec Ideal S768x768 .bf16) (bm : FVec Ideal S1x768 .f32) :
    matOf (projRows xb wm bm) = prodMat xb wm bm :=
  funext fun n => funext fun j => projRows_apply xb wm bm n j

/-- Entry (0, n, c) of the output block. -/
theorem blockOut_apply (x0 : FVec Ideal S1x1024x768 .f32) (x1 x2 x3 : FVec Ideal S768x768 .bf16) (x4 x5 x6 : FVec Ideal S1x768 .f32)
    (x7 : FVec Ideal S768x768 .bf16) (x8 : FVec Ideal S1x768 .f32) (n : Fin 1024) (c : Fin 768) :
    (blockOut x0 x1 x2 x3 x4 x5 x6 x7 x8 (ix3 0 n c) : EReal)
      = (∑ j : Fin 768, Attn.concat (prodMat x0 x1 x4) (prodMat x0 x2 x5) (prodMat x0 x3 x6) n j * x7 (ix2 j c)) + x8 (ix2 0 c) := by
  unfold blockOut
  rw [outRows_apply, canon_pieces, matOf_projRows x0 x1 x4 |>.symm, matOf_projRows x0 x2 x5 |>.symm, matOf_projRows x0 x3 x6 |>.symm]
  rfl

end Cert.Attn.Block

end
-- ==== Proof.Windows.lean ====
/-
  The ten windows of the attention kernel's one region, over its grid of 8 points (one per image).

  The token window and the output window move with the point: at point t their block is image t, whole (1 × 1024 × 768).
  The eight other windows — three weights, three biases, the projection weight and its bias — hold their whole array at
  every point. So an input block read at a local index is the window's array at an index that arithmetic names, and the
  8 output blocks cover the 8 × 1024 × 768 result: index (b, n, c) lies in the block of point b.
-/
import proofs.«157842_j3736621547996_2_alg».proof.Proof.Gen.KernelIdeal.Frame
import Idealize.ShloMosaic.Lib.ValueIdx
import Idealize.ShloMosaic.Lib.Pipeline.Value

set_option maxRecDepth 16384

noncomputable section

namespace Cert.Attn.Windows

open Idealize.ShloMosaic Idealize.ShloMosaic.ValueIdx Cert.KernelIdeal Cert.KernelIdeal.Gen

/-- The printed index maps, decided over the grid: windows 0 and 9 are at block (t, 0, 0), the others at block (0, 0). -/
theorem idx_facts : ∀ t : Fin cfg0.N,
    win0_0.index t (0 : Fin 3) = t.val ∧ win0_0.index t (1 : Fin 3) = 0 ∧ win0_0.index t (2 : Fin 3) = 0
    ∧ win0_9.index t (0 : Fin 3) = t.val ∧ win0_9.index t (1 : Fin 3) = 0 ∧ win0_9.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The image a grid point works on. -/
def imgOf (t : Fin cfg0.N) : Fin 8 := ⟨t.val, by have h := t.isLt; have hN : cfg0.N = 8 := N_0; omega⟩

/-- The grid point of an image. -/
def pointOf (b : Fin 8) : Fin cfg0.N := ⟨b.val, by have hN : cfg0.N = 8 := N_0; have := b.isLt; omega⟩

theorem imgOf_pointOf (b : Fin 8) : imgOf (pointOf b) = b := Fin.ext rfl

variable (m : (ℓ : Loc nD τ sig) → Buf (Elt Ideal) ℓ)

/-- Window 0 at point t is image t's tokens. -/
theorem tokens_blk (c : Dev nD) (t : Fin cfg0.N) (n : Fin 1024) (c' : Fin 768) :
    iblk m c 0 t (ix3 0 n c') = (V m c main_v0 : S8x1024x768.Idx → EReal) (ix3 (imgOf t) n c') := by
  obtain ⟨e0, e1, e2, -⟩ := idx_facts t
  show V m c main_v0 (((cfg0.win 0).blk t).view.emb (ix3 0 n c')) = V m c main_v0 (ix3 (imgOf t) n c')
  refine congrArg _ (funext fun d => Fin.ext ?_)
  match d with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 768 + 1 * c'.val = c'.val; omega

/-- Window 1 is the query weight, whole, at every point. -/
theorem wq_blk (c : Dev nD) (t : Fin cfg0.N) (a : Fin 768) (b : Fin 768) :
    iblk m c 1 t (ix2 a b) = (V m c main_v2 : S768x768.Idx → EReal) (ix2 a b) := by
  obtain ⟨-, -, -, -, -, -, e0, e1, -⟩ := idx_facts t
  show V m c main_v2 (((cfg0.win 1).blk t).view.emb (ix2 a b)) = V m c main_v2 (ix2 a b)
  refine congrArg _ (funext fun d => Fin.ext ?_)
  match d with
  | ⟨0, _⟩ => show win0_1.index t (0 : Fin 2) * 768 + 1 * a.val = a.val; omega
  | ⟨1, _⟩ => show win0_1.index t (1 : Fin 2) * 768 + 1 * b.val = b.val; omega

/-- Window 2 is the key weight, whole, at every point. -/
theorem wk_blk (c : Dev nD) (t : Fin cfg0.N) (a : Fin 768) (b : Fin 768) :
    iblk m c 2 t (ix2 a b) = (V m c main_v4 : S768x768.Idx → EReal) (ix2 a b) := by
  obtain ⟨-, -, -, -, -, -, -, -, e0, e1, -⟩ := idx_facts t
  show V m c main_v4 (((cfg0.win 2).blk t).view.emb (ix2 a b)) = V m c main_v4 (ix2 a b)
  refine congrArg _ (funext fun d => Fin.ext ?_)
  match d with
  | ⟨0, _⟩ => show win0_2.index t (0 : Fin 2) * 768 + 1 * a.val = a.val; omega
  | ⟨1, _⟩ => show win0_2.index t (1 : Fin 2) * 768 + 1 * b.val = b.val; omega

/-- Window 3 is the value weight, whole, at every point. -/
theorem wv_blk (c : Dev nD) (t : Fin cfg0.N) (a : Fin 768) (b : Fin 768) :
    iblk m c 3 t (ix2 a b) = (V m c main_v6 : S768x768.Idx → EReal) (ix2 a b) := by
  obtain ⟨-, -, -, -, -, -, -, -, -, -, e0, e1, -⟩ := idx_facts t
  show V m c main_v6 (((cfg0.win 3).blk t).view.emb (ix2 a b)) = V m c main_v6 (ix2 a b)
  refine congrArg _ (funext fun d => Fin.ext ?_)
  match d with
  | ⟨0, _⟩ => show win0_3.index t (0 : Fin 2) * 768 + 1 * a.val = a.val; omega
  | ⟨1, _⟩ => show win0_3.index t (1 : Fin 2) * 768 + 1 * b.val = b.val; omega

/-- Window 4 is the query bias, whole, at every point. -/
theorem bq_blk (c : Dev nD) (t : Fin cfg0.N) (a : Fin 1) (b : Fin 768) :
    iblk m c 4 t (ix2 a b) = (V m c main_v9 : S1x768.Idx → EReal) (ix2 a b) := by
  obtain ⟨-, -, -, -, -, -, -, -, -, -, -, -, e0, e1, -⟩ := idx_facts t
  show V m c main_v9 (((cfg0.win 4).blk t).view.emb (ix2 a b)) = V m c main_v9 (ix2 a b)
  refine congrArg _ (funext fun d => Fin.ext ?_)
  match d with
  | ⟨0, _⟩ => show win0_4.index t (0 : Fin 2) * 1 + 1 * a.val = a.val; omega
  | ⟨1, _⟩ => show win0_4.index t (1 : Fin 2) * 768 + 1 * b.val = b.val; omega

/-- Window 5 is the key bias, whole, at every point. -/
theorem bk_blk (c : Dev nD) (t : Fin cfg0.N) (a : Fin 1) (b : Fin 768) :
    iblk m c 5 t (ix2 a b) = (V m c main_v11 : S1x768.Idx → EReal) (ix2 a b) := by
  obtain ⟨-, -, -, -, -, -, -, -, -, -, -, -, -, -, e0, e1, -⟩ := idx_facts t
  show V m c main_v11 (((cfg0.win 5).blk t).view.emb (ix2 a b)) = V m c main_v11 (ix2 a b)
  refine congrArg _ (funext fun d => Fin.ext ?_)
  match d with
  | ⟨0, _⟩ => show win0_5.index t (0 : Fin 2) * 1 + 1 * a.val = a.val; omega
  | ⟨1, _⟩ => show win0_5.index t (1 : Fin 2) * 768 + 1 * b.val = b.val; omega

/-- Window 6 is the value bias, whole, at every point. -/
theorem bv_blk (c : Dev nD) (t : Fin cfg0.N) (a : Fin 1) (b : Fin 768) :
    iblk m c 6 t (ix2 a b) = (V m c main_v13 : S1x768.Idx → EReal) (ix2 a b) := by
  obtain ⟨-, -, -, -, -, -, -, -, -, -, -, -, -, -, -, -, e0, e1, -⟩ := idx_facts t
  show V m c main_v13 (((cfg0.win 6).blk t).view.emb (ix2 a b)) = V m c main_v13 (ix2 a b)
  refine congrArg _ (funext fun d => Fin.ext ?_)
  match d with
  | ⟨0, _⟩ => show win0_6.index t (0 : Fin 2) * 1 + 1 * a.val = a.val; omega
  | ⟨1, _⟩ => show win0_6.index t (1 : Fin 2) * 768 + 1 * b.val = b.val; omega

/-- Window 7 is the projection weight, whole, at every point. -/
theorem wproj_blk (c : Dev nD) (t : Fin cfg0.N) (a : Fin 768) (b : Fin 768) :
    iblk m c 7 t (ix2 a b) = (V m c main_v7 : S768x768.Idx → EReal) (ix2 a b) := by
  obtain ⟨-, -, -, -, -, -, -, -, -, -, -, -, -, -, -, -, -, -, e0, e1, -⟩ := idx_facts t
  show V m c main_v7 (((cfg0.win 7).blk t).view.emb (ix2 a b)) = V m c main_v7 (ix2 a b)
  refine congrArg _ (funext fun d => Fin.ext ?_)
  match d with
  | ⟨0, _⟩ => show win0_7.index t (0 : Fin 2) * 768 + 1 * a.val = a.val; omega
  | ⟨1, _⟩ => show win0_7.index t (1 : Fin 2) * 768 + 1 * b.val = b.val; omega

/-- Window 8 is the projection bias, whole, at every point. -/
theorem bproj_blk (c : Dev nD) (t : Fin cfg0.N) (a : Fin 1) (b : Fin 768) :
    iblk m c 8 t (ix2 a b) = (V m c main_v14 : S1x768.Idx → EReal) (ix2 a b) := by
  obtain ⟨-, -, -, -, -, -, -, -, -, -, -, -, -, -, -, -, -, -, -, -, e0, e1⟩ := idx_facts t
  show V m c main_v14 (((cfg0.win 8).blk t).view.emb (ix2 a b)) = V m c main_v14 (ix2 a b)
  refine congrArg _ (funext fun d => Fin.ext ?_)
  match d with
  | ⟨0, _⟩ => show win0_8.index t (0 : Fin 2) * 1 + 1 * a.val = a.val; omega
  | ⟨1, _⟩ => show win0_8.index t (1 : Fin 2) * 768 + 1 * b.val = b.val; omega

/-- An index of the result array is in point t's block iff each coordinate is in the block's range on its axis. -/
theorem mem_blk9 (t : Fin cfg0.N) (i : S8x1024x768.Idx) :
    i ∈ ((cfg0.win 9).blk t).view.set ↔ ∀ a : Fin 3, win0_9.index t a * S1x1024x768.size a ≤ (i a).val
      ∧ (i a).val < win0_9.index t a * S1x1024x768.size a + S1x1024x768.size a := by
  show i ∈ ((View.whole main_v15).slice (win0_9.rect t)).set ↔ _
  rw [View.set_slice_whole, Rect.mem_set_unit]
  exact Iff.rfl

/-- Every index of the result array is in the block of the point of its image, which is written back. -/
theorem cover9 (i : S8x1024x768.Idx) :
    ∃ t : Fin cfg0.N, (cfg0.win 9).flush t = true ∧ i ∈ ((cfg0.win 9).blk t).view.set := by
  have hi0 : (i 0).val < 8 := (i 0).isLt
  have hi1 : (i 1).val < 1024 := (i 1).isLt
  have hi2 : (i 2).val < 768 := (i 2).isLt
  refine ⟨pointOf (i 0), flush0_9 _, ?_⟩
  rw [mem_blk9]
  obtain ⟨-, -, -, e0, e1, e2, -⟩ := idx_facts (pointOf (i 0))
  intro a
  match a with
  | ⟨0, _⟩ => show win0_9.index (pointOf (i 0)) (0 : Fin 3) * 1 ≤ (i 0).val ∧ (i 0).val < win0_9.index (pointOf (i 0)) (0 : Fin 3) * 1 + 1
              rw [e0]; show (i 0).val * 1 ≤ (i 0).val ∧ (i 0).val < (i 0).val * 1 + 1; omega
  | ⟨1, _⟩ => show win0_9.index (pointOf (i 0)) (1 : Fin 3) * 1024 ≤ (i 1).val ∧ (i 1).val < win0_9.index (pointOf (i 0)) (1 : Fin 3) * 1024 + 1024
              omega
  | ⟨2, _⟩ => show win0_9.index (pointOf (i 0)) (2 : Fin 3) * 768 ≤ (i 2).val ∧ (i 2).val < win0_9.index (pointOf (i 0)) (2 : Fin 3) * 768 + 768
              omega

/-- The array index under the output block's local index (0, n, c) at point t: image t, token n, channel c. -/
theorem emb_blk9 (t : Fin cfg0.N) (n : Fin 1024) (c' : Fin 768) :
    ((cfg0.win 9).blk t).view.emb (ix3 0 n c') = (ix3 (imgOf t) n c' : S8x1024x768.Idx) := by
  obtain ⟨-, -, -, e0, e1, e2, -⟩ := idx_facts t
  refine funext fun d => Fin.ext ?_
  match d with
  | ⟨0, _⟩ => show win0_9.index t (0 : Fin 3) * 1 + 1 * 0 = t.val; omega
  | ⟨1, _⟩ => show win0_9.index t (1 : Fin 3) * 1024 + 1 * n.val = n.val; omega
  | ⟨2, _⟩ => show win0_9.index t (2 : Fin 3) * 768 + 1 * c'.val = c'.val; omega

end Cert.Attn.Windows

end
-- ==== Proof.HostPrefix.lean ====
/-
  What the kernel finds in its nine input arrays when it starts, in terms of the five arguments.

  Before the kernel starts the program only rearranges and narrows its arguments; no value is computed. The image
  argument [8, 32, 32, 768] is reshaped to [8, 1024, 768]: pixel (r, c) becomes token 32 r + c, so token `n` reads
  pixel (n / 32, n % 32). The joint weight [768, 2304] is cut into its three column blocks of width 768 (the query,
  key and value weights: column `j` of a block is column `j`, `768 + j`, `1536 + j` of the whole) and each is
  converted to the narrow float format; the output weight is converted likewise. On the extended reals a format
  change is the identity, so these arrays are the arguments' entries themselves. The joint bias [2304] is cut into
  the same three blocks, each then viewed as a one-row matrix [1, 768], and the output bias is viewed the same way.

  Each array is first written as the operations' term of the argument it comes from (running the fifteen
  operations in order and keeping the one result asked for), then read at an index: a reshape reads the operand at
  the index with the same row-major position, a slice reads the operand at the index shifted by the offsets.
-/
import proofs.«157842_j3736621547996_2_alg».proof.Proof.Spec
import proofs.«157842_j3736621547996_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.Attn.Host

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (c : Dev nD)

/-! ## The tokens -/

/-- The token array is the image argument reshaped from [8, 32, 32, 768] to [8, 1024, 768]. -/
theorem tokens_term :
    (Cert.KernelIdeal.Gen.V m c main_v0 : S8x1024x768.Idx → EReal)
      = shapeCast S8x1024x768 (m ((c.tc : Thread nD τ).loc main_arg0) : S8x32x32x768.Idx → EReal) shapeCasts_S8x32x32x768_S8x1024x768 := by
  show StableHlo.after hostOps0 (fun b => m (c, b)) (Proc.devRef .tc main_v0) = _
  after_results
  rfl

/-- Token `n` of image `b` at channel `c'` is pixel (n / 32, n % 32): both have row-major position
    `(1024 b + n) 768 + c'`. -/
theorem tokens_at (b : Fin 8) (n : Fin 1024) (c' : Fin 768) :
    (Cert.KernelIdeal.Gen.V m c main_v0 : S8x1024x768.Idx → EReal) (ix3 b n c')
      = (m ((c.tc : Thread nD τ).loc main_arg0) : S8x32x32x768.Idx → EReal) (ix4 b (tokRow n) (tokCol n) c') := by
  refine (congrFun (tokens_term m c) (ix3 b n c')).trans ?_
  exact shapeCast_apply _ shapeCasts_S8x32x32x768_S8x1024x768 (ix3 b n c') (ix4 b (tokRow n) (tokCol n) c') (by
    rewrite [Shape.rowMajor_val_four, Shape.rowMajor_val_three]
    have := n.isLt
    show ((b.val * 32 + n.val / 32) * 32 + n.val % 32) * 768 + c'.val = (b.val * 1024 + n.val) * 768 + c'.val
    omega)

/-! ## The three blocks of the joint weight, and the output weight -/

/-- On the extended reals a change of float format is the identity: the converted matrix has the same entries. -/
theorem narrow_apply (a : S768x768.Idx → EReal) (i : S768x768.Idx) :
    (truncf (F := Ideal) .bf16 (a : FVec Ideal S768x768 .f32) bitsLt_bf16_f32 : S768x768.Idx → EReal) i = a i := rfl

/-- The query weight: columns 0 … 767 of the joint weight, converted (the identity on the extended reals). -/
theorem wq_term :
    (Cert.KernelIdeal.Gen.V m c main_v2 : S768x768.Idx → EReal)
      = (truncf (F := Ideal) .bf16 (extractStridedSlice S768x768 ![0, 0] (m ((c.tc : Thread nD τ).loc main_arg1) : S768x2304.Idx → EReal)
          slices_S768x2304_S768x768_0_0) bitsLt_bf16_f32 : S768x768.Idx → EReal) := by
  show StableHlo.after hostOps0 (fun b => m (c, b)) (Proc.devRef .tc main_v2) = _
  after_results

theorem wq_at (c' j : Fin 768) :
    (Cert.KernelIdeal.Gen.V m c main_v2 : S768x768.Idx → EReal) (ix2 c' j)
      = (m ((c.tc : Thread nD τ).loc main_arg1) : S768x2304.Idx → EReal) (ix2 c' ⟨j.val, by have := j.isLt; omega⟩) := by
  refine (congrFun (wq_term m c) (ix2 c' j)).trans ?_
  refine (narrow_apply _ _).trans ?_
  exact extractStridedSlice_apply ![0, 0] _ slices_S768x2304_S768x768_0_0 (ix2 c' j) (ix2 c' ⟨j.val, by have := j.isLt; omega⟩) (fun a => by
    match a with
    | ⟨0, _⟩ => show c'.val = 0 + c'.val; omega
    | ⟨1, _⟩ => show j.val = 0 + j.val; omega)

/-- The key weight: columns 768 … 1535 of the joint weight, converted. -/
theorem wk_term :
    (Cert.KernelIdeal.Gen.V m c main_v4 : S768x768.Idx → EReal)
      = (truncf (F := Ideal) .bf16 (extractStridedSlice S768x768 ![0, 768] (m ((c.tc : Thread nD τ).loc main_arg1) : S768x2304.Idx → EReal)
          slices_S768x2304_S768x768_0_768) bitsLt_bf16_f32 : S768x768.Idx → EReal) := by
  show StableHlo.after hostOps0 (fun b => m (c, b)) (Proc.devRef .tc main_v4) = _
  after_results

theorem wk_at (c' j : Fin 768) :
    (Cert.KernelIdeal.Gen.V m c main_v4 : S768x768.Idx → EReal) (ix2 c' j)
      = (m ((c.tc : Thread nD τ).loc main_arg1) : S768x2304.Idx → EReal) (ix2 c' ⟨768 + j.val, by have := j.isLt; omega⟩) := by
  refine (congrFun (wk_term m c) (ix2 c' j)).trans ?_
  refine (narrow_apply _ _).trans ?_
  exact extractStridedSlice_apply ![0, 768] _ slices_S768x2304_S768x768_0_768 (ix2 c' j) (ix2 c' ⟨768 + j.val, by have := j.isLt; omega⟩) (fun a => by
    match a with
    | ⟨0, _⟩ => show c'.val = 0 + c'.val; omega
    | ⟨1, _⟩ => show 768 + j.val = 768 + j.val; omega)

/-- The value weight: columns 1536 … 2303 of the joint weight, converted. -/
theorem wv_term :
    (Cert.KernelIdeal.Gen.V m c main_v6 : S768x768.Idx → EReal)
      = (truncf (F := Ideal) .bf16 (extractStridedSlice S768x768 ![0, 1536] (m ((c.tc : Thread nD τ).loc main_arg1) : S768x2304.Idx → EReal)
          slices_S768x2304_S768x768_0_1536) bitsLt_bf16_f32 : S768x768.Idx → EReal) := by
  show StableHlo.after hostOps0 (fun b => m (c, b)) (Proc.devRef .tc main_v6) = _
  after_results

theorem wv_at (c' j : Fin 768) :
    (Cert.KernelIdeal.Gen.V m c main_v6 : S768x768.Idx → EReal) (ix2 c' j)
      = (m ((c.tc : Thread nD τ).loc main_arg1) : S768x2304.Idx → EReal) (ix2 c' ⟨1536 + j.val, by have := j.isLt; omega⟩) := by
  refine (congrFun (wv_term m c) (ix2 c' j)).trans ?_
  refine (narrow_apply _ _).trans ?_
  exact extractStridedSlice_apply ![0, 1536] _ slices_S768x2304_S768x768_0_1536 (ix2 c' j) (ix2 c' ⟨1536 + j.val, by have := j.isLt; omega⟩) (fun a => by
    match a with
    | ⟨0, _⟩ => show c'.val = 0 + c'.val; omega
    | ⟨1, _⟩ => show 1536 + j.val = 1536 + j.val; omega)

/-- The output weight, converted. -/
theorem wproj_term :
    (Cert.KernelIdeal.Gen.V m c main_v7 : S768x768.Idx → EReal) = (truncf (F := Ideal) .bf16 (m ((c.tc : Thread nD τ).loc main_arg3) : S768x768.Idx → EReal) bitsLt_bf16_f32
          : S768x768.Idx → EReal) := by
  show StableHlo.after hostOps0 (fun b => m (c, b)) (Proc.devRef .tc main_v7) = _
  after_results

theorem wproj_at (j c' : Fin 768) :
    (Cert.KernelIdeal.Gen.V m c main_v7 : S768x768.Idx → EReal) (ix2 j c') = (m ((c.tc : Thread nD τ).loc main_arg3) : S768x768.Idx → EReal) (ix2 j c') :=
  (congrFun (wproj_term m c) (ix2 j c')).trans (narrow_apply _ _)

/-! ## The three blocks of the joint bias, and the output bias, as one-row matrices -/

/-- The query bias: entries 0 … 767 of the joint bias, as a row. -/
theorem bq_term :
    (Cert.KernelIdeal.Gen.V m c main_v9 : S1x768.Idx → EReal)
      = shapeCast S1x768 (extractStridedSlice S768 ![0] (m ((c.tc : Thread nD τ).loc main_arg2) : S2304.Idx → EReal) slices_S2304_S768_0)
          shapeCasts_S768_S1x768 := by
  show StableHlo.after hostOps0 (fun b => m (c, b)) (Proc.devRef .tc main_v9) = _
  after_results
  rfl

theorem bq_at (j : Fin 768) :
    (Cert.KernelIdeal.Gen.V m c main_v9 : S1x768.Idx → EReal) (ix2 (0 : Fin 1) j)
      = (m ((c.tc : Thread nD τ).loc main_arg2) : S2304.Idx → EReal) (ix1 ⟨j.val, by have := j.isLt; omega⟩) := by
  refine (congrFun (bq_term m c) (ix2 (0 : Fin 1) j)).trans ?_
  refine (shapeCast_a_1a_apply _ shapeCasts_S768_S1x768 (0 : Fin 1) j).trans ?_
  exact extractStridedSlice_apply ![0] _ slices_S2304_S768_0 (ix1 j) (ix1 ⟨j.val, by have := j.isLt; omega⟩) (fun a => by
    match a with
    | ⟨0, _⟩ => show j.val = 0 + j.val; omega)

/-- The key bias: entries 768 … 1535 of the joint bias, as a row. -/
theorem bk_term :
    (Cert.KernelIdeal.Gen.V m c main_v11 : S1x768.Idx → EReal)
      = shapeCast S1x768 (extractStridedSlice S768 ![768] (m ((c.tc : Thread nD τ).loc main_arg2) : S2304.Idx → EReal) slices_S2304_S768_768)
          shapeCasts_S768_S1x768 := by
  show StableHlo.after hostOps0 (fun b => m (c, b)) (Proc.devRef .tc main_v11) = _
  after_results
  rfl

theorem bk_at (j : Fin 768) :
    (Cert.KernelIdeal.Gen.V m c main_v11 : S1x768.Idx → EReal) (ix2 (0 : Fin 1) j)
      = (m ((c.tc : Thread nD τ).loc main_arg2) : S2304.Idx → EReal) (ix1 ⟨768 + j.val, by have := j.isLt; omega⟩) := by
  refine (congrFun (bk_term m c) (ix2 (0 : Fin 1) j)).trans ?_
  refine (shapeCast_a_1a_apply _ shapeCasts_S768_S1x768 (0 : Fin 1) j).trans ?_
  exact extractStridedSlice_apply ![768] _ slices_S2304_S768_768 (ix1 j) (ix1 ⟨768 + j.val, by have := j.isLt; omega⟩) (fun a => by
    match a with
    | ⟨0, _⟩ => show 768 + j.val = 768 + j.val; omega)

/-- The value bias: entries 1536 … 2303 of the joint bias, as a row. -/
theorem bv_term :
    (Cert.KernelIdeal.Gen.V m c main_v13 : S1x768.Idx → EReal)
      = shapeCast S1x768 (extractStridedSlice S768 ![1536] (m ((c.tc : Thread nD τ).loc main_arg2) : S2304.Idx → EReal) slices_S2304_S768_1536)
          shapeCasts_S768_S1x768 := by
  show StableHlo.after hostOps0 (fun b => m (c, b)) (Proc.devRef .tc main_v13) = _
  after_results
  rfl

theorem bv_at (j : Fin 768) :
    (Cert.KernelIdeal.Gen.V m c main_v13 : S1x768.Idx → EReal) (ix2 (0 : Fin 1) j)
      = (m ((c.tc : Thread nD τ).loc main_arg2) : S2304.Idx → EReal) (ix1 ⟨1536 + j.val, by have := j.isLt; omega⟩) := by
  refine (congrFun (bv_term m c) (ix2 (0 : Fin 1) j)).trans ?_
  refine (shapeCast_a_1a_apply _ shapeCasts_S768_S1x768 (0 : Fin 1) j).trans ?_
  exact extractStridedSlice_apply ![1536] _ slices_S2304_S768_1536 (ix1 j) (ix1 ⟨1536 + j.val, by have := j.isLt; omega⟩) (fun a => by
    match a with
    | ⟨0, _⟩ => show 1536 + j.val = 1536 + j.val; omega)

/-- The output bias, as a row. -/
theorem bproj_term :
    (Cert.KernelIdeal.Gen.V m c main_v14 : S1x768.Idx → EReal) = shapeCast S1x768 (m ((c.tc : Thread nD τ).loc main_arg4) : S768.Idx → EReal) shapeCasts_S768_S1x768 := by
  show StableHlo.after hostOps0 (fun b => m (c, b)) (Proc.devRef .tc main_v14) = _
  after_results
  rfl

theorem bproj_at (c' : Fin 768) :
    (Cert.KernelIdeal.Gen.V m c main_v14 : S1x768.Idx → EReal) (ix2 (0 : Fin 1) c') = (m ((c.tc : Thread nD τ).loc main_arg4) : S768.Idx → EReal) (ix1 c') :=
  (congrFun (bproj_term m c) (ix2 (0 : Fin 1) c')).trans (shapeCast_a_1a_apply _ shapeCasts_S768_S1x768 (0 : Fin 1) c')

end Cert.Attn.Host

end
-- ==== Proof.Array.lean ====
/-
  From the blocks to the result: the kernel program's run, read as the attention specification.

  At grid point t the region stages image t's tokens and the eight whole weight and bias arrays, the body leaves
  `blockOut` of them, and the block is written back as image t of the region's 8 × 1024 × 768 result. The token array
  is the argument x with its two pixel axes merged into the token axis; the three weights and biases are the column
  thirds of w_qkv and b_qkv; so the three products of the body are the specification's Q, K, V of image t, and entry
  (t, n, c) of the region's result is the specification's projection of token n of image t. The 8 blocks cover the
  result, and the one host operation after the region splits the token axis back into pixel rows and columns.
-/
import proofs.«157842_j3736621547996_2_alg».proof.Proof.Block
import proofs.«157842_j3736621547996_2_alg».proof.Proof.Windows
import proofs.«157842_j3736621547996_2_alg».proof.Proof.HostPrefix
import Idealize.ShloMosaic.Lib.StableHlo.Run

set_option maxRecDepth 16384

noncomputable section

namespace Cert.Attn.Array

open Idealize.ShloMosaic Idealize.ShloMosaic.ValueIdx Idealize.SL.Sem Cert.KernelIdeal Cert.KernelIdeal.Gen
open Idealize.ShloMosaic.StableHlo Cert.Attn.Windows

variable (m : (ℓ : Loc nD τ sig) → Buf (Elt Ideal) ℓ) (ρ : Dev nD → PrngReg)

/-- The five argument arrays as the memory holds them. -/
abbrev argX (c : Dev nD) : Attn.ArrX := m ((c.tc : Thread nD τ).loc main_arg0)
abbrev argW (c : Dev nD) : Attn.ArrWqkv := m ((c.tc : Thread nD τ).loc main_arg1)
abbrev argB (c : Dev nD) : Attn.ArrBqkv := m ((c.tc : Thread nD τ).loc main_arg2)
abbrev argWp (c : Dev nD) : Attn.ArrWproj := m ((c.tc : Thread nD τ).loc main_arg3)
abbrev argBp (c : Dev nD) : Attn.ArrBproj := m ((c.tc : Thread nD τ).loc main_arg4)

/-- The region's result: at (b, n, c) the projection of token n of image b. -/
def regionOut (c : Dev nD) : S8x1024x768.Idx → EReal :=
  fun i => Attn.proj (argX m c) (argW m c) (argB m c) (argWp m c) (argBp m c) (i 0) (i 1) (i 2)

/-- The body's three products at point t are the specification's Q, K, V of image t. -/
theorem prod_q (c : Dev nD) (t : Fin cfg0.N) :
    Block.prodMat (iblk m c 0 t) (iblk m c 1 t) (iblk m c 4 t) = Attn.Qof (argX m c) (argW m c) (argB m c) (imgOf t) :=
  funext fun n => funext fun j => by
    unfold Block.prodMat Attn.Qof Attn.qkv
    rw [bq_blk, Host.bq_at]
    refine congrArg (· + _) (Finset.sum_congr rfl fun c' _ => ?_)
    rw [tokens_blk, Host.tokens_at, wq_blk, Host.wq_at]

theorem prod_k (c : Dev nD) (t : Fin cfg0.N) :
    Block.prodMat (iblk m c 0 t) (iblk m c 2 t) (iblk m c 5 t) = Attn.Kof (argX m c) (argW m c) (argB m c) (imgOf t) :=
  funext fun n => funext fun j => by
    unfold Block.prodMat Attn.Kof Attn.qkv
    rw [bk_blk, Host.bk_at]
    refine congrArg (· + _) (Finset.sum_congr rfl fun c' _ => ?_)
    rw [tokens_blk, Host.tokens_at, wk_blk, Host.wk_at]

theorem prod_v (c : Dev nD) (t : Fin cfg0.N) :
    Block.prodMat (iblk m c 0 t) (iblk m c 3 t) (iblk m c 6 t) = Attn.Vof (argX m c) (argW m c) (argB m c) (imgOf t) :=
  funext fun n => funext fun j => by
    unfold Block.prodMat Attn.Vof Attn.qkv
    rw [bv_blk, Host.bv_at]
    refine congrArg (· + _) (Finset.sum_congr rfl fun c' _ => ?_)
    rw [tokens_blk, Host.tokens_at, wv_blk, Host.wv_at]

/-- WHAT POINT t WRITES BACK is block t of the region's result. -/
theorem flushed_eq (c : Dev nD) (t : Fin cfg0.N) :
    (dats m 0 c).flushed 9 t = ((cfg0.win 9).blk t).view.read (Elt Ideal) (regionOut m c) := by
  show (cfg0.win 9).cut (grid0.coords t) ((dats m 0 c).after 9 t) = _
  rw [after0_9, Block.outsAt_eq]
  funext j
  obtain ⟨n, c', rfl⟩ : ∃ (n : Fin 1024) (c' : Fin 768), j = ix3 0 n c' :=
    ⟨j 1, j 2, (eq_ix3 j).trans (congrArg (fun z => ix3 z (j 1) (j 2)) (Fin.eq_zero (j 0)))⟩
  show (Block.blockOut (iblk m c 0 t) (iblk m c 1 t) (iblk m c 2 t) (iblk m c 3 t) (iblk m c 4 t) (iblk m c 5 t)
      (iblk m c 6 t) (iblk m c 7 t) (iblk m c 8 t) (ix3 0 n c') : EReal) = regionOut m c (((cfg0.win 9).blk t).view.emb (ix3 0 n c'))
  rw [emb_blk9, Block.blockOut_apply, prod_q, prod_k, prod_v]
  show _ = Attn.proj (argX m c) (argW m c) (argB m c) (argWp m c) (argBp m c) (imgOf t) n c'
  unfold Attn.proj
  rw [bproj_blk, Host.bproj_at]
  refine congrArg (· + _) (Finset.sum_congr rfl fun j' _ => ?_)
  rw [wproj_blk, Host.wproj_at]

/-- THE REGION'S RESULT after the run. -/
theorem final (c : Dev nD) : (dats m 0 c).arrAt 9 cfg0.N = regionOut m c :=
  (dats m 0 c).arrAt_eq_of_cover 9 (regionOut m c) (fun t _ => flushed_eq m c t) cover9

/-- The token axis split back into pixel rows and columns: the specification's result array. -/
theorem split_tokens (c : Dev nD) :
    shapeCast S8x32x32x768 (regionOut m c) shapeCasts_S8x1024x768_S8x32x32x768
      = Attn.G (argX m c) (argW m c) (argB m c) (argWp m c) (argBp m c) := by
  funext i
  obtain ⟨b, r, c', d, rfl⟩ : ∃ (b : Fin 8) (r c' : Fin 32) (d : Fin 768), i = ix4 b r c' d := ⟨i 0, i 1, i 2, i 3, eq_ix4 i⟩
  refine (shapeCast_apply (regionOut m c) shapeCasts_S8x1024x768_S8x32x32x768 (ix4 b r c' d) (ix3 b (Attn.tokOf r c') d) ?_).trans rfl
  rw [Shape.rowMajor_val_three, Shape.rowMajor_val_four]
  show (b.val * 1024 + (r.val * 32 + c'.val)) * 768 + d.val = ((b.val * 32 + r.val) * 32 + c'.val) * 768 + d.val
  omega

/-- The program's result buffer after the one host operation that follows the region. -/
theorem tail_eq (c : Dev nD) :
    (Pipeline.afterTail₀ cfgs (dats m) 0 (V0 m) [hostOps1] c main_v16 : S8x32x32x768.Idx → EReal)
      = Attn.G (argX m c) (argW m c) (argB m c) (argWp m c) (argBp m c) := by
  unfold Pipeline.afterTail₀
  show StableHlo.after hostOps1 _ (Proc.devRef .tc main_v16) = _
  after_results
  rw [show Pipeline.withArrays (cfgs 0).spec c (V0 m c) (fun w => (dats m 0 c).arrAt w (cfgs 0).N) (Proc.tc.devRef main_v15)
      = regionOut m c from (Pipeline.withArrays_arr spec0 launch0.win.arr_inj c _ _ 9).trans (final m c)]
  exact split_tokens m c

/-- THE KERNEL PROGRAM'S RUN: every weakly fair execution terminates with the result buffer at the specification
    of the arguments, and the arguments unchanged. -/
theorem run : θ_run defs (onTc (τ := τ) (main (F := Ideal))) ⟨m, fun _ => 0, ρ⟩ (fun r => ∀ c : Dev nD,
      r.2.mem ((c.tc : Thread nD τ).loc main_v16) = Attn.G (argX m c) (argW m c) (argB m c) (argWp m c) (argBp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Attn.Array

end
-- ==== Proof.lean ====
/-
  The certificate of a multi-head self-attention kernel against its jnp reference, on the extended reals.

  Both programs take an image batch x : [8, 32, 32, 768], a joint query/key/value weight and bias, and an output
  weight and bias. The kernel merges the two pixel axes into 1024 tokens, and for each image forms the queries, keys and
  values as three `tokens · weight + bias` products, computes for each of 12 heads and each tile of 256 query rows the
  softmax of `Q Kᵀ / 8` against the head's values, lays the heads' outputs side by side in a scratch matrix and stores
  `scratch · w_proj + b_proj`; one host reshape splits the tokens back into pixels. The reference does the same with
  whole-batch einsums and `softmax`. On the extended reals a change of float format is the identity, a product into a
  zero accumulator and an einsum are the same sum over the contraction index, a lane maximum and a host maximum are the
  same fold of `max` from -∞ (the reference's further `max` with -∞ changes nothing), and the kernel's tiling by heads and
  row tiles only decides where an entry is computed, not what it is: both programs compute the term `Cert.Attn.G` of
  the arguments (Proof/Spec.lean), sum for sum. No law of arithmetic joins the two sides, so the precondition that the
  inputs be finite is never opened.

  The three frames are the generated frame runs (the reference's is its generated run with the result dropped); the
  ideal pass rewrote nothing, so the idealization claim is trivial; the kernel's run is Proof/Array.lean (through
  Tile, Concat, Rows, Block, Windows and HostPrefix), the reference's value Proof/RefSide.lean.
-/
import proofs.«157842_j3736621547996_2_alg».proof.Defs
import proofs.«157842_j3736621547996_2_alg».proof.Proof.Gen.Kernel
import proofs.«157842_j3736621547996_2_alg».proof.Proof.Gen.Kernel.Frame
import proofs.«157842_j3736621547996_2_alg».proof.Proof.Gen.KernelIdeal
import proofs.«157842_j3736621547996_2_alg».proof.Proof.Gen.KernelIdeal.Frame
import proofs.«157842_j3736621547996_2_alg».proof.Proof.Gen.ReferenceIdeal
import proofs.«157842_j3736621547996_2_alg».proof.Proof.Gen.ReferenceIdeal.Run
import proofs.«157842_j3736621547996_2_alg».proof.Proof.Gen.ReferenceIdeal.Read
import proofs.«157842_j3736621547996_2_alg».proof.Proof.Gen.Pre_finite_inputs
import proofs.«157842_j3736621547996_2_alg».proof.Proof.RefSide
import proofs.«157842_j3736621547996_2_alg».proof.Proof.Array

noncomputable section

namespace Cert.Proof

open Idealize.ShloMosaic Idealize.ShloMosaic.TcCoe Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the arguments, the kernel's result buffer ends at the specification of its arguments
    (its run, read) and the reference's at its composed term of its own arguments, which is the specification of
    them (its value, read) — the same arguments, so the same array. -/
theorem algebraic : Cert.algebraic_KernelIdeal_ReferenceIdeal := by
  intro m ρ m' ρ' _ hagree
  refine ⟨fun c => Cert.Attn.G (Cert.Attn.Array.argX m c) (Cert.Attn.Array.argW m c) (Cert.Attn.Array.argB m c)
      (Cert.Attn.Array.argWp m c) (Cert.Attn.Array.argBp m c), Cert.Attn.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.Attn.Ref.reference_eq_G,
    (hagree c).1, (hagree c).2.1, (hagree c).2.2.1, (hagree c).2.2.2.1, (hagree c).2.2.2.2]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
